-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 122
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S50000, .i1⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S_, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x64, .f32⟩
  | .hbm, ⟨65, _⟩ => ⟨S800000x1, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S800000x64, .f32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S64x64, .bf16⟩
  | .hbm, ⟨82, _⟩ => ⟨S1x64, .f32⟩
  | .hbm, ⟨83, _⟩ => ⟨S50000x64, .f32⟩
  | .hbm, ⟨84, _⟩ => ⟨S800000x1, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x64, .f32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S50000x64, .f32⟩
  | .hbm, ⟨98, _⟩ => ⟨S800000x1, .i32⟩
  | .hbm, ⟨99, _⟩ => ⟨S50000x64, .f32⟩
  | .hbm, ⟨100, _⟩ => ⟨S64x64, .bf16⟩
  | .hbm, ⟨101, _⟩ => ⟨S1x64, .f32⟩
  | .hbm, ⟨102, _⟩ => ⟨S50000x64, .f32⟩
  | .hbm, ⟨103, _⟩ => ⟨S800000x1, .f32⟩
  | .hbm, ⟨104, _⟩ => ⟨S_, .i32⟩
  | .hbm, ⟨105, _⟩ => ⟨S800000, .i32⟩
  | .hbm, ⟨106, _⟩ => ⟨S800000, .i1⟩
  | .hbm, ⟨107, _⟩ => ⟨S_, .i32⟩
  | .hbm, ⟨108, _⟩ => ⟨S800000, .i32⟩
  | .hbm, ⟨109, _⟩ => ⟨S800000, .i32⟩
  | .hbm, ⟨110, _⟩ => ⟨S800000, .i32⟩
  | .hbm, ⟨111, _⟩ => ⟨S800000x1, .i32⟩
  | .hbm, ⟨112, _⟩ => ⟨S800000x64, .f32⟩
  | .hbm, ⟨113, _⟩ => ⟨S800000x64, .f32⟩
  | .hbm, ⟨114, _⟩ => ⟨S800000x64, .f32⟩
  | .hbm, ⟨115, _⟩ => ⟨S_, .f32⟩
  | .hbm, ⟨116, _⟩ => ⟨S50000x64, .f32⟩
  | .hbm, ⟨117, _⟩ => ⟨S800000x1, .i32⟩
  | .hbm, ⟨118, _⟩ => ⟨S50000x64, .f32⟩
  | .hbm, ⟨119, _⟩ => ⟨S64x64, .bf16⟩
  | .hbm, ⟨120, _⟩ => ⟨S1x64, .f32⟩
  | .hbm, ⟨121, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .bf16⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .bf16⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .bf16⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_call1_v0 : Ref sig .tc := ⟨.hbm, 60, rfl⟩
abbrev main_call1_v1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_19 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v51) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v54) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v67) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v83) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 179
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S800000x1, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x64, .f32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S50000x1, .f32⟩
  | 73 => ⟨S_, .f32⟩
  | 74 => ⟨S50000x1, .f32⟩
  | 75 => ⟨S50000x1, .i1⟩
  | 76 => ⟨S_, .f32⟩
  | 77 => ⟨S50000, .f32⟩
  | 78 => ⟨S50000, .f32⟩
  | 79 => ⟨S50000x1, .f32⟩
  | 80 => ⟨S50000x64, .f32⟩
  | 81 => ⟨S50000x64, .f32⟩
  | 82 => ⟨S_, .f32⟩
  | 83 => ⟨S_, .f32⟩
  | 84 => ⟨S50000x64, .i1⟩
  | 85 => ⟨S50000x64, .f32⟩
  | 86 => ⟨S50000x64, .f32⟩
  | 87 => ⟨S50000x64, .f32⟩
  | 88 => ⟨S1x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x64, .f32⟩
  | 104 => ⟨S800000x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S50000x1, .f32⟩
  | 117 => ⟨S_, .f32⟩
  | 118 => ⟨S50000x1, .f32⟩
  | 119 => ⟨S50000x1, .i1⟩
  | 120 => ⟨S_, .f32⟩
  | 121 => ⟨S50000, .f32⟩
  | 122 => ⟨S50000, .f32⟩
  | 123 => ⟨S50000x1, .f32⟩
  | 124 => ⟨S50000x64, .f32⟩
  | 125 => ⟨S50000x64, .f32⟩
  | 126 => ⟨S_, .f32⟩
  | 127 => ⟨S_, .f32⟩
  | _ => ⟨S50000x64, .f32⟩

abbrev hbmTy0_1 (i : Nat) : BufTy := match i % 128 with
  | 0 => ⟨S50000x64, .i1⟩
  | 1 => ⟨S50000x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x64, .f32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S50000x1, .f32⟩
  | 33 => ⟨S_, .f32⟩
  | 34 => ⟨S50000x1, .f32⟩
  | 35 => ⟨S50000x1, .i1⟩
  | 36 => ⟨S_, .f32⟩
  | 37 => ⟨S50000, .f32⟩
  | 38 => ⟨S50000, .f32⟩
  | 39 => ⟨S50000x1, .f32⟩
  | 40 => ⟨S50000x64, .f32⟩
  | 41 => ⟨S50000x64, .f32⟩
  | 42 => ⟨S_, .f32⟩
  | 43 => ⟨S_, .f32⟩
  | 44 => ⟨S50000x64, .i1⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_14 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_v63 : Ref sig .tc := ⟨.hbm, 97, rfl⟩
abbrev main_c_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_18 : Ref sig .tc := ⟨.hbm, 110, rfl⟩
abbrev main_v74 : Ref sig .tc := ⟨.hbm, 111, rfl⟩
abbrev main_cst_19 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_20 : Ref sig .tc := ⟨.hbm, 117, rfl⟩
abbrev main_v79 : Ref sig .tc := ⟨.hbm, 118, rfl⟩
abbrev main_v80 : Ref sig .tc := ⟨.hbm, 119, rfl⟩
abbrev main_cst_21 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_22 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_call4_cst : Ref sig .tc := ⟨.hbm, 135, rfl⟩
abbrev main_call4_v0 : Ref sig .tc := ⟨.hbm, 136, rfl⟩
abbrev main_v91 : Ref sig .tc := ⟨.hbm, 137, rfl⟩
abbrev main_v92 : Ref sig .tc := ⟨.hbm, 138, rfl⟩
abbrev main_c_23 : Ref sig .tc := ⟨.hbm, 139, rfl⟩
abbrev main_v93 : Ref sig .tc := ⟨.hbm, 140, rfl⟩
abbrev main_v94 : Ref sig .tc := ⟨.hbm, 141, rfl⟩
abbrev main_c_24 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_25 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_26 : Ref sig .tc := ⟨.hbm, 154, rfl⟩
abbrev main_v105 : Ref sig .tc := ⟨.hbm, 155, rfl⟩
abbrev main_cst_27 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_28 : Ref sig .tc := ⟨.hbm, 161, rfl⟩
abbrev main_v110 : Ref sig .tc := ⟨.hbm, 162, rfl⟩
abbrev main_v111 : Ref sig .tc := ⟨.hbm, 163, rfl⟩
abbrev main_cst_29 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_30 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernRun.lean ====
/-
  The kernel program's run with its result buffer named.

  The program is ten segments: five stretches of host operations, then three dense-block regions with one stretch of host
  operations before each of the last two. Every weakly fair execution ends with every unscoped buffer at the contents the
  segments' fold leaves; read at the result buffer this is the last region's output array, and at an argument's buffer the
  launch contents. The statement is the frame's with the result buffer's final contents added.
-/
import proofs.«176437_j81698867905110_1_alg».proof.Proof.Gen.KernelIdeal.Frame

set_option maxRecDepth 16384

noncomputable section

namespace Cert.KernelIdeal.KernRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates, nothing faulting,
    with the result buffer at what the fold of the segments leaves there and the argument arrays as launched. -/
theorem run_out : θ_run defs (onTc (τ := τ) (main (F := F))) ⟨m, fun _ => 0, ρ⟩ (fun r => ∀ c : Dev nD,
      r.2.mem ((c.tc : Thread nD τ).loc main_v86) = W10 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v86 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.KernRun

end
-- ==== Proof.Spec.lean ====
/-
  A three-layer graph convolution with mean aggregation, written once for both programs.

  Nodes `N = 50000`, edges `E = 800000`, channels `C = 64`. From the edge list come the source and destination of every
  edge; the in-degree `deg` of a node is the number of edges that end in it; every edge carries the weight
  `ew = w · dis[src] · dis[dst]` with `dis = deg^(-1/2)` where `deg > 0` and `0` elsewhere. One propagation step sends
  node features `h : [N, C]` to the per-node sums `stage h`: row `n` is the sum over the edges ending in `n` of the edge's
  weight times the source node's row of `h`. A layer then takes the MEAN over the incoming edges — the sum over the in-degree
  clamped below by one, and zero where the in-degree is not positive —, multiplies by a `C × C` matrix, adds a bias and
  (in the first two layers) clamps below by zero.

  The two programs differ only in how the mean is taken: one divides the sums by the broadcast clamped degree and selects,
  the other multiplies the sums by a table that holds the selected reciprocal. `layerAt` is the layer at one entry with the
  mean taken the first way; `regionAt` is what a dense block computes at one entry from the sums, such a table, a matrix and
  a one-row bias.
-/
import proofs.«176437_j81698867905110_1_alg».proof.Proof.Gen.ReferenceIdeal
import Idealize.ShloMosaic.PureOps.Ideal
import Idealize.ShloMosaic.Lib.ValueIdx

noncomputable section

open scoped BigOperators

namespace Cert.Gcn

open Cert.ReferenceIdeal Cert.ReferenceIdeal.Gen Idealize.ShloMosaic Idealize.ShloMosaic.TcCoe Idealize.ShloMosaic.ValueIdx

/-- Node features, per-node sums, a layer's result: `[N, C]`. -/
abbrev Mat := (⟨S50000x64, .f32⟩ : BufTy).Contents (Elt Ideal)
/-- One endpoint of every edge: `[E]` integers. -/
abbrev EdgeIx := (⟨S800000, .i32⟩ : BufTy).Contents (Elt Ideal)
/-- One weight per edge: `[E]`. -/
abbrev EdgeW := (⟨S800000, .f32⟩ : BufTy).Contents (Elt Ideal)
/-- One value per node: `[N]`. -/
abbrev NodeV := (⟨S50000, .f32⟩ : BufTy).Contents (Elt Ideal)
/-- A layer's matrix: `[C, C]`. -/
abbrev Wt := (⟨S64x64, .f32⟩ : BufTy).Contents (Elt Ideal)
/-- A layer's bias: `[C]`. -/
abbrev Bias := (⟨S64, .f32⟩ : BufTy).Contents (Elt Ideal)

/-! ## The edge data -/

/-- The sources: row 0 of the `[2, E]` edge list. -/
def rowOf (ei : (⟨S2x800000, .i32⟩ : BufTy).Contents (Elt Ideal)) : EdgeIx :=
  shapeCast S800000 (extractStridedSlice S1x800000 ![0, 0] ei slices_S2x800000_S1x800000_0_0) shapeCasts_S1x800000_S800000

/-- The destinations: row 1 of the edge list. -/
def colOf (ei : (⟨S2x800000, .i32⟩ : BufTy).Contents (Elt Ideal)) : EdgeIx :=
  shapeCast S800000 (extractStridedSlice S1x800000 ![1, 0] ei slices_S2x800000_S1x800000_1_0) shapeCasts_S1x800000_S800000

/-- A negative node number counts from the end: `ix + N` where `ix < 0`. -/
def wrap (ix : EdgeIx) : EdgeIx :=
  select (cmpi .slt ix (broadcastInDim S800000 ![] bcast_S_S800000 (constantI S_ 32 0#32)))
    (addi ix (broadcastInDim S800000 ![] bcast_S_S800000 (constantI S_ 32 50000#32))) ix

/-- The in-degree: one added at its destination for every edge. -/
def degOf (col : EdgeIx) : NodeV :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 col)
    (broadcastInDim S800000 ![] bcast_S_S800000 (constant (F := Ideal) S_ .f32 0x3F800000#32))

/-- `deg^(-1/2)` of the degree clamped below by one where the degree is positive, zero elsewhere. -/
def disOf (deg : NodeV) : NodeV :=
  select (cmpf (F := Ideal) (φ := .f32) .ogt deg (broadcastInDim S50000 ![] bcast_S_S50000 (constant (F := Ideal) S_ .f32 0x00000000#32)))
    (Host.rsqrt (F := Ideal) (φ := .f32) (maximumf (F := Ideal) (φ := .f32) deg (broadcastInDim S50000 ![] bcast_S_S50000 (constant (F := Ideal) S_ .f32 0x3F800000#32))))
    (broadcastInDim S50000 ![] bcast_S_S50000 (id (constant (F := Ideal) S_ .f32 0x00000000#32)))

/-- The edge weights `w · dis[src] · dis[dst]`. -/
def ewOf (w : EdgeW) (row col : EdgeIx) : EdgeW :=
  mulf (F := Ideal)
    (mulf (F := Ideal) (φ := .f32) w
      (Host.gather gather_S50000_S800000x1_S800000_n_0_n_n_0_1_1 (disOf (degOf col))
        (broadcastInDim S800000x1 ![0] bcast_S800000_S800000x1_0 (wrap row))))
    (Host.gather gather_S50000_S800000x1_S800000_n_0_n_n_0_1_1 (disOf (degOf col))
      (broadcastInDim S800000x1 ![0] bcast_S800000_S800000x1_0 (wrap col)))

/-! ## One propagation step -/

/-- The per-node sums of the weighted source rows: gather the sources' rows of `h`, scale every edge's row by the edge's
    weight, add every edge's row into its destination's. -/
def stage (h : Mat) (row col : EdgeIx) (ew : EdgeW) : Mat :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 col)
    (mulf (F := Ideal)
      (broadcastInDim S800000x64 ![0, 1] bcast_S800000x1_S800000x64_0_1 (broadcastInDim S800000x1 ![0] bcast_S800000_S800000x1_0 ew))
      (Host.gather gather_S50000x64_S800000x1_S800000x64_1_0_n_n_0_1_164 h
        (broadcastInDim S800000x1 ![0] bcast_S800000_S800000x1_0 (wrap row))))

/-! ## A layer, the mean taken by division -/

/-- Clamp below by zero, or not. -/
def act : Bool → Mat → Mat
  | true, v => maximumf (F := Ideal) (φ := .f32) v (broadcastInDim S50000x64 ![] bcast_S_S50000x64 (constant (F := Ideal) S_ .f32 0x00000000#32))
  | false, v => v

/-- The mean over the incoming edges (the sums over the clamped in-degree where the in-degree is positive, zero elsewhere),
    times the matrix, plus the bias: as the operations on whole arrays. The in-degree is counted again from the
    destinations. -/
def refPre (s : Mat) (col : EdgeIx) (W : Wt) (b : Bias) : Mat :=
  addf (F := Ideal)
    (Host.dotGeneral (F := Ideal) (φ₁ := .f32) (φ₂ := .f32) dot_S50000x64_S64x64_S50000x64_1_0_0_1_n_n none
      (select
        (broadcastInDim S50000x64 ![0, 1] bcast_S50000x1_S50000x64_0_1
          (cmpf (F := Ideal) (φ := .f32) .ogt (broadcastInDim S50000x1 ![0] bcast_S50000_S50000x1_0 (degOf col))
            (broadcastInDim S50000x1 ![] bcast_S_S50000x1 (constant (F := Ideal) S_ .f32 0x00000000#32))))
        (Host.divf (F := Ideal) (φ := .f32) s
          (broadcastInDim S50000x64 ![0, 1] bcast_S50000x1_S50000x64_0_1
            (broadcastInDim S50000x1 ![0] bcast_S50000_S50000x1_0
              (maximumf (F := Ideal) (φ := .f32) (degOf col) (broadcastInDim S50000 ![] bcast_S_S50000 (constant (F := Ideal) S_ .f32 0x3F800000#32))))))
        (broadcastInDim S50000x64 ![] bcast_S_S50000x64 (id (constant (F := Ideal) S_ .f32 0x00000000#32))))
      W)
    (broadcastInDim S50000x64 ![0, 1] bcast_S1x64_S50000x64_0_1 (broadcastInDim S1x64 ![1] bcast_S64_S1x64_1 b))

/-- The layer on whole arrays. -/
def refTail (relu : Bool) (s : Mat) (col : EdgeIx) (W : Wt) (b : Bias) : Mat := act relu (refPre s col W b)

/-! ## The table of selected reciprocals -/

/-- `1 / max(deg, 1)` where the in-degree is positive and zero elsewhere, repeated across the channels. -/
def invbOf (col : EdgeIx) : Mat :=
  broadcastInDim S50000x64 ![0, 1] bcast_S50000x1_S50000x64_0_1
    (broadcastInDim S50000x1 ![0] bcast_S50000_S50000x1_0
      (select (cmpf (F := Ideal) (φ := .f32) .ogt (degOf col) (broadcastInDim S50000 ![] bcast_S_S50000 (constant (F := Ideal) S_ .f32 0x00000000#32)))
        (Host.divf (F := Ideal) (φ := .f32) (broadcastInDim S50000 ![] bcast_S_S50000 (constant (F := Ideal) S_ .f32 0x3F800000#32))
          (maximumf (F := Ideal) (φ := .f32) (degOf col) (broadcastInDim S50000 ![] bcast_S_S50000 (constant (F := Ideal) S_ .f32 0x3F800000#32))))
        (broadcastInDim S50000 ![] bcast_S_S50000 (id (constant (F := Ideal) S_ .f32 0x00000000#32)))))

/-! ## The layer at one entry -/

/-- Clamp one value below by zero, or not. -/
def actS : Bool → EReal → EReal
  | true, v => FloatOps.maximumf (F := Ideal) (φ := .f32) v (FloatOps.ofBits (F := Ideal) .f32 0x00000000#32)
  | false, v => v

/-- The mean at one entry: the sum `x` over the in-degree `d` clamped below by one where `d` is positive, zero elsewhere. -/
def meanS (x d : EReal) : EReal :=
  Scalar.select (FloatOps.cmpf (F := Ideal) (φ := .f32) .ogt d (FloatOps.ofBits (F := Ideal) .f32 0x00000000#32))
    (FloatOps.hostDivf (F := Ideal) (φ := .f32) x (FloatOps.maximumf (F := Ideal) (φ := .f32) d (FloatOps.ofBits (F := Ideal) .f32 0x3F800000#32)))
    (FloatOps.ofBits (F := Ideal) .f32 0x00000000#32)

/-- The layer at node `r`, channel `j`: the row's means times column `j` of the matrix, plus the bias's entry `j`. -/
def layerAt (relu : Bool) (s : Mat) (deg : NodeV) (W : Wt) (b : Bias) (r : Fin 50000) (j : Fin 64) : EReal :=
  actS relu ((∑ k : Fin 64, meanS (s (ix2 r k)) (deg (ix1 r)) * W (ix2 k j)) + b (ix1 j))

/-- The layer as an array. -/
def layerFn (relu : Bool) (s : Mat) (deg : NodeV) (W : Wt) (b : Bias) : Mat :=
  fun i => layerAt relu s deg W b (i 0) (i 1)

/-- What a dense block computes at node `r`, channel `j`, from the sums `s`, a table `t` of the same shape, a matrix and a
    one-row bias: the row of `s · t` times column `j`, plus the bias's entry. -/
def regionAt (relu : Bool) (s t : Mat) (wb : (⟨S64x64, .bf16⟩ : BufTy).Contents (Elt Ideal))
    (b2 : (⟨S1x64, .f32⟩ : BufTy).Contents (Elt Ideal)) (r : Fin 50000) (j : Fin 64) : EReal :=
  actS relu ((∑ k : Fin 64, (s (ix2 r k) * t (ix2 r k)) * wb (ix2 k j)) + b2 (ix2 (0 : Fin 1) j))

/-- The dense block's result as an array. -/
def regionFn (relu : Bool) (s t : Mat) (wb : (⟨S64x64, .bf16⟩ : BufTy).Contents (Elt Ideal))
    (b2 : (⟨S1x64, .f32⟩ : BufTy).Contents (Elt Ideal)) : Mat :=
  fun i => regionAt relu s t wb b2 (i 0) (i 1)

theorem layerFn_apply (relu : Bool) (s : Mat) (deg : NodeV) (W : Wt) (b : Bias) (r : Fin 50000) (j : Fin 64) :
    layerFn relu s deg W b (ix2 r j) = layerAt relu s deg W b r j := rfl

theorem regionFn_apply (relu : Bool) (s t : Mat) (wb : (⟨S64x64, .bf16⟩ : BufTy).Contents (Elt Ideal))
    (b2 : (⟨S1x64, .f32⟩ : BufTy).Contents (Elt Ideal)) (r : Fin 50000) (j : Fin 64) :
    regionFn relu s t wb b2 (ix2 r j) = regionAt relu s t wb b2 r j := rfl

end Cert.Gcn

end
-- ==== Proof.Net.lean ====
/-
  The whole network: three layers, each the layer of the propagation step of the previous layer's features, with one set of
  edge data. Both programs' results are shown equal to this one array.
-/
import proofs.«176437_j81698867905110_1_alg».proof.Proof.Spec

noncomputable section

namespace Cert.Gcn

open Cert.ReferenceIdeal Cert.ReferenceIdeal.Gen Idealize.ShloMosaic Idealize.ShloMosaic.TcCoe

/-- One layer of the network on features `h`: the layer of the propagation step of `h` along the edges of `ei` weighted
    by `w` and the in-degrees' inverse square roots. -/
def layerOf (relu : Bool) (h : Mat) (ei : (⟨S2x800000, .i32⟩ : BufTy).Contents (Elt Ideal)) (w : EdgeW) (Wm : Wt) (b : Bias) : Mat :=
  layerFn relu (stage h (rowOf ei) (colOf ei) (ewOf w (rowOf ei) (colOf ei))) (degOf (colOf ei)) Wm b

/-- The three layers: the first two clamped below by zero, the last not. -/
def net (x : Mat) (ei : (⟨S2x800000, .i32⟩ : BufTy).Contents (Elt Ideal)) (w : EdgeW)
    (W1 : Wt) (b1 : Bias) (W2 : Wt) (b2 : Bias) (W3 : Wt) (b3 : Bias) : Mat :=
  layerOf false (layerOf true (layerOf true x ei w W1 b1) ei w W2 b2) ei w W3 b3

end Cert.Gcn

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.KernCasts.lean ====
/-
  Typed references of the kernel program's outlined functions: the transport of contents along the equation "this buffer's type is
  the value's type" changes nothing. For each buffer an outlined function reads or writes, the contents written through the
  typed reference are the contents given, and the contents read through it are the buffer's: both sides have the same type up
  to unfolding the buffer's declared type, and are equal by the general heterogeneous statement.
-/
import proofs.«176437_j81698867905110_1_alg».proof.Proof.Gen.KernelIdeal.Launch
import proofs.«176437_j81698867905110_1_alg».proof.Proof.LibTypedRef
import Idealize.ShloMosaic.PureOps.Ideal

noncomputable section

namespace Cert.KernelIdeal.KernCasts

open Cert.KernelIdeal Cert.KernelIdeal.Gen Idealize.ShloMosaic Idealize.ShloMosaic.TcCoe Idealize.ShloMosaic.StableHlo Cert.Lib.TypedRef

theorem toBuf_main_cst_3 (p1 p2 p3) (v : (⟨S_, .f32⟩ : BufTy).Contents (Elt Ideal)) :
    (TRef.of (sig := sig) (T := ⟨S_, .f32⟩) main_cst_3 p1 p2 p3).toBuf v = v :=
  eq_of_heq (toBuf_heq (TRef.of (sig := sig) (T := ⟨S_, .f32⟩) main_cst_3 p1 p2 p3) v)
theorem ofBuf_main_cst_3 (p1 p2 p3) (v : (⟨S_, .f32⟩ : BufTy).Contents (Elt Ideal)) :
    (TRef.of (sig := sig) (T := ⟨S_, .f32⟩) main_cst_3 p1 p2 p3).ofBuf v = v :=
  eq_of_heq (ofBuf_heq (TRef.of (sig := sig) (T := ⟨S_, .f32⟩) main_cst_3 p1 p2 p3) v)
theorem toBuf_main_call0_v0 (p1 p2 p3) (v : (⟨S_, .f32⟩ : BufTy).Contents (Elt Ideal)) :
    (TRef.of (sig := sig) (T := ⟨S_, .f32⟩) main_call0_v0 p1 p2 p3).toBuf v = v :=
  eq_of_heq (toBuf_heq (TRef.of (sig := sig) (T := ⟨S_, .f32⟩) main_call0_v0 p1 p2 p3) v)
theorem ofBuf_main_call0_v0 (p1 p2 p3) (v : (⟨S_, .f32⟩ : BufTy).Contents (Elt Ideal)) :
    (TRef.of (sig := sig) (T := ⟨S_, .f32⟩) main_call0_v0 p1 p2 p3).ofBuf v = v :=
  eq_of_heq (ofBuf_heq (TRef.of (sig := sig) (T := ⟨S_, .f32⟩) main_call0_v0 p1 p2 p3) v)
theorem toBuf_main_call0_v1 (p1 p2 p3) (v : (⟨S50000, .f32⟩ : BufTy).Contents (Elt Ideal)) :
    (TRef.of (sig := sig) (T := ⟨S50000, .f32⟩) main_call0_v1 p1 p2 p3).toBuf v = v :=
  eq_of_heq (toBuf_heq (TRef.of (sig := sig) (T := ⟨S50000, .f32⟩) main_call0_v1 p1 p2 p3) v)
theorem ofBuf_main_call0_v1 (p1 p2 p3) (v : (⟨S50000, .f32⟩ : BufTy).Contents (Elt Ideal)) :
    (TRef.of (sig := sig) (T := ⟨S50000, .f32⟩) main_call0_v1 p1 p2 p3).ofBuf v = v :=
  eq_of_heq (ofBuf_heq (TRef.of (sig := sig) (T := ⟨S50000, .f32⟩) main_call0_v1 p1 p2 p3) v)
theorem toBuf_main_v9 (p1 p2 p3) (v : (⟨S50000, .i1⟩ : BufTy).Contents (Elt Ideal)) :
    (TRef.of (sig := sig) (T := ⟨S50000, .i1⟩) main_v9 p1 p2 p3).toBuf v = v :=
  eq_of_heq (toBuf_heq (TRef.of (sig := sig) (T := ⟨S50000, .i1⟩) main_v9 p1 p2 p3) v)
theorem ofBuf_main_v9 (p1 p2 p3) (v : (⟨S50000, .i1⟩ : BufTy).Contents (Elt Ideal)) :
    (TRef.of (sig := sig) (T := ⟨S50000, .i1⟩) main_v9 p1 p2 p3).ofBuf v = v :=
  eq_of_heq (ofBuf_heq (TRef.of (sig := sig) (T := ⟨S50000, .i1⟩) main_v9 p1 p2 p3) v)
theorem toBuf_main_v12 (p1 p2 p3) (v : (⟨S50000, .f32⟩ : BufTy).Contents (Elt Ideal)) :
    (TRef.of (sig := sig) (T := ⟨S50000, .f32⟩) main_v12 p1 p2 p3).toBuf v = v :=
  eq_of_heq (toBuf_heq (TRef.of (sig := sig) (T := ⟨S50000, .f32⟩) main_v12 p1 p2 p3) v)
theorem ofBuf_main_v12 (p1 p2 p3) (v : (⟨S50000, .f32⟩ : BufTy).Contents (Elt Ideal)) :
    (TRef.of (sig := sig) (T := ⟨S50000, .f32⟩) main_v12 p1 p2 p3).ofBuf v = v :=
  eq_of_heq (ofBuf_heq (TRef.of (sig := sig) (T := ⟨S50000, .f32⟩) main_v12 p1 p2 p3) v)
theorem toBuf_main_v13 (p1 p2 p3) (v : (⟨S50000, .f32⟩ : BufTy).Contents (Elt Ideal)) :
    (TRef.of (sig := sig) (T := ⟨S50000, .f32⟩) main_v13 p1 p2 p3).toBuf v = v :=
  eq_of_heq (toBuf_heq (TRef.of (sig := sig) (T := ⟨S50000, .f32⟩) main_v13 p1 p2 p3) v)
theorem ofBuf_main_v13 (p1 p2 p3) (v : (⟨S50000, .f32⟩ : BufTy).Contents (Elt Ideal)) :
    (TRef.of (sig := sig) (T := ⟨S50000, .f32⟩) main_v13 p1 p2 p3).ofBuf v = v :=
  eq_of_heq (ofBuf_heq (TRef.of (sig := sig) (T := ⟨S50000, .f32⟩) main_v13 p1 p2 p3) v)
theorem toBuf_main_cst_10 (p1 p2 p3) (v : (⟨S_, .f32⟩ : BufTy).Contents (Elt Ideal)) :
    (TRef.of (sig := sig) (T := ⟨S_, .f32⟩) main_cst_10 p1 p2 p3).toBuf v = v :=
  eq_of_heq (toBuf_heq (TRef.of (sig := sig) (T := ⟨S_, .f32⟩) main_cst_10 p1 p2 p3) v)
theorem ofBuf_main_cst_10 (p1 p2 p3) (v : (⟨S_, .f32⟩ : BufTy).Contents (Elt Ideal)) :
    (TRef.of (sig := sig) (T := ⟨S_, .f32⟩) main_cst_10 p1 p2 p3).ofBuf v = v :=
  eq_of_heq (ofBuf_heq (TRef.of (sig := sig) (T := ⟨S_, .f32⟩) main_cst_10 p1 p2 p3) v)
theorem toBuf_main_call1_v0 (p1 p2 p3) (v : (⟨S_, .f32⟩ : BufTy).Contents (Elt Ideal)) :
    (TRef.of (sig := sig) (T := ⟨S_, .f32⟩) main_call1_v0 p1 p2 p3).toBuf v = v :=
  eq_of_heq (toBuf_heq (TRef.of (sig := sig) (T := ⟨S_, .f32⟩) main_call1_v0 p1 p2 p3) v)
theorem ofBuf_main_call1_v0 (p1 p2 p3) (v : (⟨S_, .f32⟩ : BufTy).Contents (Elt Ideal)) :
    (TRef.of (sig := sig) (T := ⟨S_, .f32⟩) main_call1_v0 p1 p2 p3).ofBuf v = v :=
  eq_of_heq (ofBuf_heq (TRef.of (sig := sig) (T := ⟨S_, .f32⟩) main_call1_v0 p1 p2 p3) v)
theorem toBuf_main_call1_v1 (p1 p2 p3) (v : (⟨S50000, .f32⟩ : BufTy).Contents (Elt Ideal)) :
    (TRef.of (sig := sig) (T := ⟨S50000, .f32⟩) main_call1_v1 p1 p2 p3).toBuf v = v :=
  eq_of_heq (toBuf_heq (TRef.of (sig := sig) (T := ⟨S50000, .f32⟩) main_call1_v1 p1 p2 p3) v)
theorem ofBuf_main_call1_v1 (p1 p2 p3) (v : (⟨S50000, .f32⟩ : BufTy).Contents (Elt Ideal)) :
    (TRef.of (sig := sig) (T := ⟨S50000, .f32⟩) main_call1_v1 p1 p2 p3).ofBuf v = v :=
  eq_of_heq (ofBuf_heq (TRef.of (sig := sig) (T := ⟨S50000, .f32⟩) main_call1_v1 p1 p2 p3) v)
theorem toBuf_main_v31 (p1 p2 p3) (v : (⟨S50000, .i1⟩ : BufTy).Contents (Elt Ideal)) :
    (TRef.of (sig := sig) (T := ⟨S50000, .i1⟩) main_v31 p1 p2 p3).toBuf v = v :=
  eq_of_heq (toBuf_heq (TRef.of (sig := sig) (T := ⟨S50000, .i1⟩) main_v31 p1 p2 p3) v)
theorem ofBuf_main_v31 (p1 p2 p3) (v : (⟨S50000, .i1⟩ : BufTy).Contents (Elt Ideal)) :
    (TRef.of (sig := sig) (T := ⟨S50000, .i1⟩) main_v31 p1 p2 p3).ofBuf v = v :=
  eq_of_heq (ofBuf_heq (TRef.of (sig := sig) (T := ⟨S50000, .i1⟩) main_v31 p1 p2 p3) v)
theorem toBuf_main_v35 (p1 p2 p3) (v : (⟨S50000, .f32⟩ : BufTy).Contents (Elt Ideal)) :
    (TRef.of (sig := sig) (T := ⟨S50000, .f32⟩) main_v35 p1 p2 p3).toBuf v = v :=
  eq_of_heq (toBuf_heq (TRef.of (sig := sig) (T := ⟨S50000, .f32⟩) main_v35 p1 p2 p3) v)
theorem ofBuf_main_v35 (p1 p2 p3) (v : (⟨S50000, .f32⟩ : BufTy).Contents (Elt Ideal)) :
    (TRef.of (sig := sig) (T := ⟨S50000, .f32⟩) main_v35 p1 p2 p3).ofBuf v = v :=
  eq_of_heq (ofBuf_heq (TRef.of (sig := sig) (T := ⟨S50000, .f32⟩) main_v35 p1 p2 p3) v)
theorem toBuf_main_v36 (p1 p2 p3) (v : (⟨S50000, .f32⟩ : BufTy).Contents (Elt Ideal)) :
    (TRef.of (sig := sig) (T := ⟨S50000, .f32⟩) main_v36 p1 p2 p3).toBuf v = v :=
  eq_of_heq (toBuf_heq (TRef.of (sig := sig) (T := ⟨S50000, .f32⟩) main_v36 p1 p2 p3) v)
theorem ofBuf_main_v36 (p1 p2 p3) (v : (⟨S50000, .f32⟩ : BufTy).Contents (Elt Ideal)) :
    (TRef.of (sig := sig) (T := ⟨S50000, .f32⟩) main_v36 p1 p2 p3).ofBuf v = v :=
  eq_of_heq (ofBuf_heq (TRef.of (sig := sig) (T := ⟨S50000, .f32⟩) main_v36 p1 p2 p3) v)

end Cert.KernelIdeal.KernCasts

end
-- ==== Proof.KernHost.lean ====
/-
  The kernel program's host operations, one stretch at a time, as the specification's edge data and propagation steps.

  Before the first dense block the host computes the sources, the destinations, the edge weights, the table of selected
  reciprocals of the in-degree, the first propagation step of the input features, the first matrix narrowed to bf16 and the
  first bias as one row. Before each later dense block it computes the propagation step of the previous block's output and
  that layer's matrix and bias in the same forms. Each stretch is evaluated from ARBITRARY incoming buffer contents, and
  leaves the edge data, the table and the later layers' parameters alone.
-/
import proofs.«176437_j81698867905110_1_alg».proof.Proof.Gen.KernelIdeal.Frame
import proofs.«176437_j81698867905110_1_alg».proof.Proof.Spec
import proofs.«176437_j81698867905110_1_alg».proof.Proof.LibAfterAppend
import proofs.«176437_j81698867905110_1_alg».proof.Proof.KernCasts

noncomputable section

namespace Cert.KernelIdeal.KernHost

open Cert.KernelIdeal Cert.KernelIdeal.Gen Cert.KernelIdeal.KernCasts Cert.Gcn Cert.Lib.TypedRef
open Idealize.ShloMosaic Idealize.ShloMosaic.TcCoe Idealize.SL.Sem Idealize.ShloMosaic.StableHlo

/-- The host operations before the first dense block: five consecutive stretches as one. -/
abbrev opsPre : List (HloOp τ sig (Elt Ideal)) :=
  hostOps0 (F := Ideal) ++ (hostOps0_1 (F := Ideal) ++ (hostOps0_2 (F := Ideal) ++ (hostOps0_3 (F := Ideal) ++ hostOps0_4 (F := Ideal))))

variable (W : Valuation τ sig (Elt Ideal))

/-- Running the five stretches one after the other is running their concatenation. -/
theorem after_pre :
    after (hostOps0_4 (F := Ideal)) (after (hostOps0_3 (F := Ideal)) (after (hostOps0_2 (F := Ideal))
      (after (hostOps0_1 (F := Ideal)) (after (hostOps0 (F := Ideal)) W)))) = after opsPre W :=
  (Cert.LibAfterAppend.after_append5 _ _ _ _ _ W).symm

/-! ## Before the first dense block -/

theorem pre_row : after opsPre W (Proc.devRef .tc main_v1) = rowOf (W (Proc.devRef .tc main_arg1)) := by
  simp only [opsPre, hostOps0, hostOps0_1, hostOps0_2, hostOps0_3, hostOps0_4, List.cons_append, List.nil_append]
  after_results_simp <;> rfl

theorem pre_col : after opsPre W (Proc.devRef .tc main_v3) = colOf (W (Proc.devRef .tc main_arg1)) := by
  simp only [opsPre, hostOps0, hostOps0_1, hostOps0_2, hostOps0_3, hostOps0_4, List.cons_append, List.nil_append]
  after_results_simp <;> rfl

theorem pre_ew : after opsPre W (Proc.devRef .tc main_v29)
    = ewOf (W (Proc.devRef .tc main_arg2)) (rowOf (W (Proc.devRef .tc main_arg1))) (colOf (W (Proc.devRef .tc main_arg1))) := by
  simp only [opsPre, hostOps0, hostOps0_1, hostOps0_2, hostOps0_3, hostOps0_4, List.cons_append, List.nil_append]
  after_results_simp
  simp only [ofBuf_toBuf, toBuf_ofBuf, toBuf_main_cst_3, ofBuf_main_cst_3, toBuf_main_call0_v0, ofBuf_main_call0_v0, toBuf_main_call0_v1, ofBuf_main_call0_v1, toBuf_main_v9, ofBuf_main_v9, toBuf_main_v12, ofBuf_main_v12, toBuf_main_v13, ofBuf_main_v13, toBuf_main_cst_10, ofBuf_main_cst_10, toBuf_main_call1_v0, ofBuf_main_call1_v0, toBuf_main_call1_v1, ofBuf_main_call1_v1, toBuf_main_v31, ofBuf_main_v31, toBuf_main_v35, ofBuf_main_v35, toBuf_main_v36, ofBuf_main_v36]
  rfl

theorem pre_table : after opsPre W (Proc.devRef .tc main_v38) = invbOf (colOf (W (Proc.devRef .tc main_arg1))) := by
  simp only [opsPre, hostOps0, hostOps0_1, hostOps0_2, hostOps0_3, hostOps0_4, List.cons_append, List.nil_append]
  after_results_simp
  simp only [ofBuf_toBuf, toBuf_ofBuf, toBuf_main_cst_3, ofBuf_main_cst_3, toBuf_main_call0_v0, ofBuf_main_call0_v0, toBuf_main_call0_v1, ofBuf_main_call0_v1, toBuf_main_v9, ofBuf_main_v9, toBuf_main_v12, ofBuf_main_v12, toBuf_main_v13, ofBuf_main_v13, toBuf_main_cst_10, ofBuf_main_cst_10, toBuf_main_call1_v0, ofBuf_main_call1_v0, toBuf_main_call1_v1, ofBuf_main_call1_v1, toBuf_main_v31, ofBuf_main_v31, toBuf_main_v35, ofBuf_main_v35, toBuf_main_v36, ofBuf_main_v36]
  rfl

theorem pre_sums : after opsPre W (Proc.devRef .tc main_v51)
    = stage (W (Proc.devRef .tc main_arg0)) (rowOf (W (Proc.devRef .tc main_arg1))) (colOf (W (Proc.devRef .tc main_arg1)))
        (ewOf (W (Proc.devRef .tc main_arg2)) (rowOf (W (Proc.devRef .tc main_arg1))) (colOf (W (Proc.devRef .tc main_arg1)))) := by
  simp only [opsPre, hostOps0, hostOps0_1, hostOps0_2, hostOps0_3, hostOps0_4, List.cons_append, List.nil_append]
  after_results_simp
  simp only [ofBuf_toBuf, toBuf_ofBuf, toBuf_main_cst_3, ofBuf_main_cst_3, toBuf_main_call0_v0, ofBuf_main_call0_v0, toBuf_main_call0_v1, ofBuf_main_call0_v1, toBuf_main_v9, ofBuf_main_v9, toBuf_main_v12, ofBuf_main_v12, toBuf_main_v13, ofBuf_main_v13, toBuf_main_cst_10, ofBuf_main_cst_10, toBuf_main_call1_v0, ofBuf_main_call1_v0, toBuf_main_call1_v1, ofBuf_main_call1_v1, toBuf_main_v31, ofBuf_main_v31, toBuf_main_v35, ofBuf_main_v35, toBuf_main_v36, ofBuf_main_v36]
  rfl

theorem pre_matrix : after opsPre W (Proc.devRef .tc main_v52) = truncf (F := Ideal) .bf16 (W (Proc.devRef .tc main_arg3)) bitsLt_bf16_f32 := by
  simp only [opsPre, hostOps0, hostOps0_1, hostOps0_2, hostOps0_3, hostOps0_4, List.cons_append, List.nil_append]
  after_results_simp <;> rfl

theorem pre_bias : after opsPre W (Proc.devRef .tc main_v53) = shapeCast S1x64 (W (Proc.devRef .tc main_arg4)) shapeCasts_S64_S1x64 := by
  simp only [opsPre, hostOps0, hostOps0_1, hostOps0_2, hostOps0_3, hostOps0_4, List.cons_append, List.nil_append]
  after_results_simp <;> rfl

/-! ## Before the second and the third dense block -/

theorem mid1_sums : after (hostOps1 (F := Ideal)) W (Proc.devRef .tc main_v67)
    = stage (W (Proc.devRef .tc main_v54)) (W (Proc.devRef .tc main_v1)) (W (Proc.devRef .tc main_v3)) (W (Proc.devRef .tc main_v29)) := by
  after_results_simp <;> rfl

theorem mid1_matrix : after (hostOps1 (F := Ideal)) W (Proc.devRef .tc main_v68) = truncf (F := Ideal) .bf16 (W (Proc.devRef .tc main_arg5)) bitsLt_bf16_f32 := by
  after_results_simp <;> rfl

theorem mid1_bias : after (hostOps1 (F := Ideal)) W (Proc.devRef .tc main_v69) = shapeCast S1x64 (W (Proc.devRef .tc main_arg6)) shapeCasts_S64_S1x64 := by
  after_results_simp <;> rfl

theorem mid2_sums : after (hostOps2 (F := Ideal)) W (Proc.devRef .tc main_v83)
    = stage (W (Proc.devRef .tc main_v70)) (W (Proc.devRef .tc main_v1)) (W (Proc.devRef .tc main_v3)) (W (Proc.devRef .tc main_v29)) := by
  after_results_simp <;> rfl

theorem mid2_matrix : after (hostOps2 (F := Ideal)) W (Proc.devRef .tc main_v84) = truncf (F := Ideal) .bf16 (W (Proc.devRef .tc main_arg7)) bitsLt_bf16_f32 := by
  after_results_simp <;> rfl

theorem mid2_bias : after (hostOps2 (F := Ideal)) W (Proc.devRef .tc main_v85) = shapeCast S1x64 (W (Proc.devRef .tc main_arg8)) shapeCasts_S64_S1x64 := by
  after_results_simp <;> rfl

/-! ## What each stretch leaves alone -/

theorem pre_keep_arg5 : after opsPre W (Proc.devRef .tc main_arg5) = W (Proc.devRef .tc main_arg5) := by
  simp only [opsPre, hostOps0, hostOps0_1, hostOps0_2, hostOps0_3, hostOps0_4, List.cons_append, List.nil_append]
  after_results_simp <;> rfl
theorem pre_keep_arg6 : after opsPre W (Proc.devRef .tc main_arg6) = W (Proc.devRef .tc main_arg6) := by
  simp only [opsPre, hostOps0, hostOps0_1, hostOps0_2, hostOps0_3, hostOps0_4, List.cons_append, List.nil_append]
  after_results_simp <;> rfl
theorem pre_keep_arg7 : after opsPre W (Proc.devRef .tc main_arg7) = W (Proc.devRef .tc main_arg7) := by
  simp only [opsPre, hostOps0, hostOps0_1, hostOps0_2, hostOps0_3, hostOps0_4, List.cons_append, List.nil_append]
  after_results_simp <;> rfl
theorem pre_keep_arg8 : after opsPre W (Proc.devRef .tc main_arg8) = W (Proc.devRef .tc main_arg8) := by
  simp only [opsPre, hostOps0, hostOps0_1, hostOps0_2, hostOps0_3, hostOps0_4, List.cons_append, List.nil_append]
  after_results_simp <;> rfl
theorem mid1_keep_v1 : after (hostOps1 (F := Ideal)) W (Proc.devRef .tc main_v1) = W (Proc.devRef .tc main_v1) := by
  after_results_simp <;> rfl
theorem mid1_keep_v3 : after (hostOps1 (F := Ideal)) W (Proc.devRef .tc main_v3) = W (Proc.devRef .tc main_v3) := by
  after_results_simp <;> rfl
theorem mid1_keep_v29 : after (hostOps1 (F := Ideal)) W (Proc.devRef .tc main_v29) = W (Proc.devRef .tc main_v29) := by
  after_results_simp <;> rfl
theorem mid1_keep_v38 : after (hostOps1 (F := Ideal)) W (Proc.devRef .tc main_v38) = W (Proc.devRef .tc main_v38) := by
  after_results_simp <;> rfl
theorem mid1_keep_arg7 : after (hostOps1 (F := Ideal)) W (Proc.devRef .tc main_arg7) = W (Proc.devRef .tc main_arg7) := by
  after_results_simp <;> rfl
theorem mid1_keep_arg8 : after (hostOps1 (F := Ideal)) W (Proc.devRef .tc main_arg8) = W (Proc.devRef .tc main_arg8) := by
  after_results_simp <;> rfl
theorem mid2_keep_v38 : after (hostOps2 (F := Ideal)) W (Proc.devRef .tc main_v38) = W (Proc.devRef .tc main_v38) := by
  after_results_simp <;> rfl

end Cert.KernelIdeal.KernHost

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.KernRegion.lean ====
/-
  What the dense part of each of the three layers leaves in its result array, as one function of the arrays it reads.

  The dense part of a layer reads four arrays: per-node sums `s : [50000, 64]`, a table `t` of the same shape, a matrix
  `w : [64, 64]` and a one-row bias `b : [1, 64]`. It walks the nodes in ten consecutive blocks of 5000 rows: at grid
  point `n` it loads block `n` (rows `5000 n … 5000 n + 4999`) of `s`, block `n` of `t`, all of `w` and all of `b`, and
  stores block `n` of the result, whose entry `(p, q)` is
      `clamp ((∑ k, (s_blk (p, k) · t_blk (p, k)) · w (k, q)) + b (0, q))`:
  row `p` of the entrywise product `s · t` times column `q` of the matrix, plus the bias's entry `q`, clamped below by
  zero in the first two layers and not in the third. The entrywise product is narrowed to a 16-bit format on its way into
  the matrix product; over the extended reals that narrowing is the identity, and a matrix product accumulated into the
  zero array is the plain sum over the contracted coordinate.

  Entry `(p, k)` of block `n` of a `[50000, 64]` array is the array's entry `(5000 n + p, k)`; the matrix and the bias
  are read whole. So entry `(p, q)` of result block `n` depends only on row `5000 n + p` of `s` and of `t`, on column `q`
  of the matrix and on entry `q` of the bias, and it is `regionAt` at node `5000 n + p`, channel `q`: what grid point `n`
  writes back is block `n` of the one whole-array function `regionFn`. Every row `r` lies in block `r / 5000`, so the ten
  write-backs cover the result array and it ends holding `regionFn`. The four arrays that are only read are never written
  back and end as the dense part found them.
-/
import proofs.«176437_j81698867905110_1_alg».proof.Proof.Gen.KernelIdeal.Frame
import proofs.«176437_j81698867905110_1_alg».proof.Proof.Spec
import proofs.«176437_j81698867905110_1_alg».proof.Proof.LibMatmulIx
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Cert.Gcn Idealize.ShloMosaic Idealize.ShloMosaic.TcCoe Idealize.SL.Sem
open Idealize.ShloMosaic.ValueIdx
open Idealize.ShloMosaic.Pipeline (Dat)

/-! ## One block's arithmetic at an entry -/

/-- The zero offsets of a load or store of a whole block. -/
theorem hz : (![0, 0] : Fin 2 → Nat) = fun _ => 0 := funext fun a => by fin_cases a <;> rfl

/-- Before the clamp: entry `(p, q)` of the product of `x0 · x1` (entrywise, then narrowed — the identity here) with the
    matrix `x2`, accumulated into the zero array, plus the one-row bias `x3` repeated down the rows, is the sum over the
    contracted coordinate `k` of `(x0 (p, k) · x1 (p, k)) · x2 (k, q)`, plus `x3 (0, q)`. -/
theorem affine_apply (x0 x1 : Vec Ideal S5000x64 .f32) (x2 : Vec Ideal S64x64 .bf16) (x3 : Vec Ideal S1x64 .f32)
    (p : Fin 5000) (q : Fin 64) :
    addf (matmul (φ₁ := .bf16) (φ₂ := .bf16) dot_S5000x64_S64x64_S5000x64_1_0_0_1_n_n none (truncf .bf16 (mulf x0 x1) bitsLt_bf16_f32) x2
          (constant (F := Ideal) S5000x64 .f32 0x00000000#32))
        (broadcastTo S5000x64 x3 broadcasts_S1x64_S5000x64) (ix2 p q)
      = (∑ k : Fin 64, (x0 (ix2 p k) * x1 (ix2 p k)) * x2 (ix2 k q)) + x3 (ix2 (0 : Fin 1) q) := by
  have hm := Cert.LibMatmulIx.matmul_zero_apply (M := 5000) (K := 64) (N := 64) (φ₁ := .bf16) (φ₂ := .bf16)
    dot_S5000x64_S64x64_S5000x64_1_0_0_1_n_n_wf none (truncf .bf16 (mulf x0 x1) bitsLt_bf16_f32) x2 p q
  have hb : broadcastTo S5000x64 x3 broadcasts_S1x64_S5000x64 (ix2 p q) = x3 (ix2 (0 : Fin 1) q) :=
    broadcastTo_apply x3 broadcasts_S1x64_S5000x64 (ix2 p q) (ix2 (0 : Fin 1) q) (fun a => by
      match a with
      | ⟨0, _⟩ => rfl
      | ⟨1, _⟩ => rfl)
  exact congrArg₂ (· + ·) hm hb

/-! ## The first layer's dense part (it clamps) -/

section Region0

variable (V : (c : Dev nD) → (b : Ref sig .tc) → Buf (Elt Ideal) ((c : Thread nD τ).loc b)) (c : Dev nD)

/-- The arithmetic of one grid point at entry `(p, q)`, over any four loaded blocks: row `p` of `x0 · x1` times column `q`
    of `x2`, plus `x3 (0, q)`, clamped below by zero. -/
theorem pay0_apply (x0 x1 : Vec Ideal S5000x64 .f32) (x2 : Vec Ideal S64x64 .bf16) (x3 : Vec Ideal S1x64 .f32)
    (p : Fin 5000) (q : Fin 64) :
    k0_pay1 (F := Ideal) x0 x1 x2 x3 (ix2 p q)
      = actS true ((∑ k : Fin 64, (x0 (ix2 p k) * x1 (ix2 p k)) * x2 (ix2 k q)) + x3 (ix2 (0 : Fin 1) q)) := by
  unfold k0_pay1
  simp only [shapeCast_self]
  exact congrArg (fun v => max v _) (affine_apply x0 x1 x2 x3 p q)

/-- Where the ten grid points put their blocks, decided over the grid: at point `n` the sums', the table's and the
    result's block is block `n` along the rows and the only block along the channels; the matrix's and the bias's is their
    only block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `(p, k)` of the sums' block at point `n` is the sums' entry `(5000 n + p, k)`. -/
theorem sums0_blk (t : Fin cfg0.N) (p : Fin 5000) (k : Fin 64) (r : Fin 50000) (hr : r.val = t.val * 5000 + p.val) :
    (iblk0 V c 0 t : Vec Ideal S5000x64 .f32) (ix2 p k) = (V c main_v51 : S50000x64.Idx → EReal) (ix2 r k) := by
  obtain ⟨e0, e1, -⟩ := idx0 t
  show V c main_v51 (((cfg0.win 0).blk t).view.emb (ix2 p k)) = V c main_v51 _
  refine congrArg (V c main_v51) ?_
  funext a; apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- Entry `(p, k)` of the table's block at point `n` is the table's entry `(5000 n + p, k)`. -/
theorem table0_blk (t : Fin cfg0.N) (p : Fin 5000) (k : Fin 64) (r : Fin 50000) (hr : r.val = t.val * 5000 + p.val) :
    (iblk0 V c 1 t : Vec Ideal S5000x64 .f32) (ix2 p k) = (V c main_v38 : S50000x64.Idx → EReal) (ix2 r k) := by
  obtain ⟨-, -, e0, e1, -⟩ := idx0 t
  show V c main_v38 (((cfg0.win 1).blk t).view.emb (ix2 p k)) = V c main_v38 _
  refine congrArg (V c main_v38) ?_
  funext a; apply Fin.ext
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- The matrix's block at every point is the matrix. -/
theorem matrix0_blk (t : Fin cfg0.N) (k q : Fin 64) :
    (iblk0 V c 2 t : Vec Ideal S64x64 .bf16) (ix2 k q) = (V c main_v52 : S64x64.Idx → EReal) (ix2 k q) := by
  obtain ⟨-, -, -, -, e0, e1, -⟩ := idx0 t
  show V c main_v52 (((cfg0.win 2).blk t).view.emb (ix2 k q)) = V c main_v52 _
  refine congrArg (V c main_v52) ?_
  funext a; apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The bias's block at every point is the bias row. -/
theorem bias0_blk (t : Fin cfg0.N) (q : Fin 64) :
    (iblk0 V c 3 t : Vec Ideal S1x64 .f32) (ix2 (0 : Fin 1) q) = (V c main_v53 : S1x64.Idx → EReal) (ix2 (0 : Fin 1) q) := by
  obtain ⟨-, -, -, -, -, -, e0, e1, -⟩ := idx0 t
  show V c main_v53 (((cfg0.win 3).blk t).view.emb (ix2 (0 : Fin 1) q)) = V c main_v53 _
  refine congrArg (V c main_v53) ?_
  funext a; apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

/-- Entry `(p, q)` of the result's block at point `n` sits in the result at `(5000 n + p, q)`. -/
theorem result0_emb (t : Fin cfg0.N) (p : Fin 5000) (q : Fin 64) (r : Fin 50000) (hr : r.val = t.val * 5000 + p.val) :
    ((cfg0.win 4).blk t).view.emb (ix2 p q) = ix2 r q := by
  obtain ⟨-, -, -, -, -, -, -, -, e0, e1⟩ := idx0 t
  funext a; apply Fin.ext
  match a with
  | ⟨0, _⟩ => show win0_4.index t (0 : Fin 2) * 5000 + 1 * p.val = r.val; rw [e0, hr]; omega
  | ⟨1, _⟩ => show win0_4.index t (1 : Fin 2) * 64 + 1 * q.val = q.val; rw [e1]; omega

/-- What grid point `n` writes back is block `n` of `regionFn` of the four arrays as the first layer's dense part found
    them: the body stores its arithmetic of the four loaded blocks, each loaded block is the rows `5000 n …` (or all) of
    its array, and the entry at node `5000 n + p` reads exactly those rows. -/
theorem flushed0_eq (t : Fin cfg0.N) :
    (dat0 (F := Ideal) V c).flushed 4 t = ((cfg0.win 4).blk t).view.read (Elt Ideal)
      (regionFn true (V c main_v51) (V c main_v38) (V c main_v52) (V c main_v53)) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz, View.ld_unit_zero (S := S1x64) hz]
  funext j
  have hN : t.val < 10 := lt_of_lt_of_eq t.isLt N_0
  obtain ⟨p, q, rfl⟩ : ∃ (p : Fin 5000) (q : Fin 64), j = ix2 p q := ⟨j 0, j 1, eq_ix2 j⟩
  obtain ⟨r, hr⟩ : ∃ r : Fin 50000, r.val = t.val * 5000 + p.val :=
    ⟨⟨t.val * 5000 + p.val, by have := p.isLt; omega⟩, rfl⟩
  show k0_pay1 (F := Ideal) (iblk0 V c 0 t) (iblk0 V c 1 t) (iblk0 V c 2 t) (iblk0 V c 3 t) (ix2 p q)
    = regionFn true (V c main_v51) (V c main_v38) (V c main_v52) (V c main_v53) (((cfg0.win 4).blk t).view.emb (ix2 p q))
  refine (pay0_apply (iblk0 V c 0 t) (iblk0 V c 1 t) (iblk0 V c 2 t) (iblk0 V c 3 t) p q).trans ?_
  refine Eq.trans ?_ (congrArg (regionFn true (V c main_v51) (V c main_v38) (V c main_v52) (V c main_v53))
    (result0_emb t p q r hr)).symm
  show actS true _ = actS true _
  refine congrArg (actS true) (congrArg₂ (· + ·) (Finset.sum_congr rfl fun k _ => ?_) (bias0_blk V c t q))
  exact congrArg₂ (· * ·) (congrArg₂ (· * ·) (sums0_blk V c t p k r hr) (table0_blk V c t p k r hr))
    (matrix0_blk V c t k q)

/-- An entry is in point `n`'s block of the result iff its row is one of `5000 n … 5000 n + 4999` (its channel any of
    the 64). -/
theorem mem_blk0 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v54).slice (win0_4.rect t)).set ↔ _
  rw [View.set_slice_whole, Rect.mem_set_unit]
  exact Iff.rfl

/-- Every entry of the result is written back by some point: row `r` lies in block `r / 5000`. -/
theorem cover0 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, e0, e1⟩ := idx0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 64 ≤ (i 1).val ∧ (i 1).val < win0_4.index t (1 : Fin 2) * 64 + 64
    rw [e1]; omega

/-- The result array after the ten points: `regionFn` of the four arrays the first layer's dense part read, as it found
    them. -/
theorem region0_out : (dat0 (F := Ideal) V c).arrAt 4 cfg0.N
    = regionFn true (V c main_v51) (V c main_v38) (V c main_v52) (V c main_v53) :=
  (dat0 V c).arrAt_eq_of_cover 4 _ (fun t _ => flushed0_eq V c t) cover0

/-- The four arrays it reads are only read: none of their windows is written back. -/
theorem isIn0 : ∀ w : Fin cfg0.W, w ≠ 4 → (cfg0.win w).isOut = false :=
  (by decide : ∀ w : Fin 5, w ≠ 4 → (win0 w).isOut = false)

/-- So each of them ends as the first layer's dense part found it. -/
theorem region0_in (w : Fin cfg0.W) (hw : w ≠ 4) :
    (dat0 (F := Ideal) V c).arrAt w cfg0.N = V c (Pipeline.arrRef spec0 w) :=
  ((dat0 V c).arrAt_in w (isIn0 w hw) _).trans (A_eq0 V c w)

end Region0

/-! ## The second layer's dense part (it clamps) -/

section Region1

variable (V : (c : Dev nD) → (b : Ref sig .tc) → Buf (Elt Ideal) ((c : Thread nD τ).loc b)) (c : Dev nD)

/-- The arithmetic of one grid point at entry `(p, q)`, over any four loaded blocks: row `p` of `x0 · x1` times column `q`
    of `x2`, plus `x3 (0, q)`, clamped below by zero. -/
theorem pay1_apply (x0 x1 : Vec Ideal S5000x64 .f32) (x2 : Vec Ideal S64x64 .bf16) (x3 : Vec Ideal S1x64 .f32)
    (p : Fin 5000) (q : Fin 64) :
    k1_pay1 (F := Ideal) x0 x1 x2 x3 (ix2 p q)
      = actS true ((∑ k : Fin 64, (x0 (ix2 p k) * x1 (ix2 p k)) * x2 (ix2 k q)) + x3 (ix2 (0 : Fin 1) q)) := by
  unfold k1_pay1
  simp only [shapeCast_self]
  exact congrArg (fun v => max v _) (affine_apply x0 x1 x2 x3 p q)

/-- Where the ten grid points put their blocks, decided over the grid: at point `n` the sums', the table's and the
    result's block is block `n` along the rows and the only block along the channels; the matrix's and the bias's is their
    only block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the sums' block at point `n` is the sums' entry `(5000 n + p, k)`. -/
theorem sums1_blk (t : Fin cfg1.N) (p : Fin 5000) (k : Fin 64) (r : Fin 50000) (hr : r.val = t.val * 5000 + p.val) :
    (iblk1 V c 0 t : Vec Ideal S5000x64 .f32) (ix2 p k) = (V c main_v67 : S50000x64.Idx → EReal) (ix2 r k) := by
  obtain ⟨e0, e1, -⟩ := idx1 t
  show V c main_v67 (((cfg1.win 0).blk t).view.emb (ix2 p k)) = V c main_v67 _
  refine congrArg (V c main_v67) ?_
  funext a; apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- Entry `(p, k)` of the table's block at point `n` is the table's entry `(5000 n + p, k)`. -/
theorem table1_blk (t : Fin cfg1.N) (p : Fin 5000) (k : Fin 64) (r : Fin 50000) (hr : r.val = t.val * 5000 + p.val) :
    (iblk1 V c 1 t : Vec Ideal S5000x64 .f32) (ix2 p k) = (V c main_v38 : S50000x64.Idx → EReal) (ix2 r k) := by
  obtain ⟨-, -, e0, e1, -⟩ := idx1 t
  show V c main_v38 (((cfg1.win 1).blk t).view.emb (ix2 p k)) = V c main_v38 _
  refine congrArg (V c main_v38) ?_
  funext a; apply Fin.ext
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- The matrix's block at every point is the matrix. -/
theorem matrix1_blk (t : Fin cfg1.N) (k q : Fin 64) :
    (iblk1 V c 2 t : Vec Ideal S64x64 .bf16) (ix2 k q) = (V c main_v68 : S64x64.Idx → EReal) (ix2 k q) := by
  obtain ⟨-, -, -, -, e0, e1, -⟩ := idx1 t
  show V c main_v68 (((cfg1.win 2).blk t).view.emb (ix2 k q)) = V c main_v68 _
  refine congrArg (V c main_v68) ?_
  funext a; apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The bias's block at every point is the bias row. -/
theorem bias1_blk (t : Fin cfg1.N) (q : Fin 64) :
    (iblk1 V c 3 t : Vec Ideal S1x64 .f32) (ix2 (0 : Fin 1) q) = (V c main_v69 : S1x64.Idx → EReal) (ix2 (0 : Fin 1) q) := by
  obtain ⟨-, -, -, -, -, -, e0, e1, -⟩ := idx1 t
  show V c main_v69 (((cfg1.win 3).blk t).view.emb (ix2 (0 : Fin 1) q)) = V c main_v69 _
  refine congrArg (V c main_v69) ?_
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

/-- Entry `(p, q)` of the result's block at point `n` sits in the result at `(5000 n + p, q)`. -/
theorem result1_emb (t : Fin cfg1.N) (p : Fin 5000) (q : Fin 64) (r : Fin 50000) (hr : r.val = t.val * 5000 + p.val) :
    ((cfg1.win 4).blk t).view.emb (ix2 p q) = ix2 r q := by
  obtain ⟨-, -, -, -, -, -, -, -, e0, e1⟩ := idx1 t
  funext a; apply Fin.ext
  match a with
  | ⟨0, _⟩ => show win1_4.index t (0 : Fin 2) * 5000 + 1 * p.val = r.val; rw [e0, hr]; omega
  | ⟨1, _⟩ => show win1_4.index t (1 : Fin 2) * 64 + 1 * q.val = q.val; rw [e1]; omega

/-- What grid point `n` writes back is block `n` of `regionFn` of the four arrays as the second layer's dense part found
    them: the body stores its arithmetic of the four loaded blocks, each loaded block is the rows `5000 n …` (or all) of
    its array, and the entry at node `5000 n + p` reads exactly those rows. -/
theorem flushed1_eq (t : Fin cfg1.N) :
    (dat1 (F := Ideal) V c).flushed 4 t = ((cfg1.win 4).blk t).view.read (Elt Ideal)
      (regionFn true (V c main_v67) (V c main_v38) (V c main_v68) (V c main_v69)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz]
  funext j
  have hN : t.val < 10 := lt_of_lt_of_eq t.isLt N_1
  obtain ⟨p, q, rfl⟩ : ∃ (p : Fin 5000) (q : Fin 64), j = ix2 p q := ⟨j 0, j 1, eq_ix2 j⟩
  obtain ⟨r, hr⟩ : ∃ r : Fin 50000, r.val = t.val * 5000 + p.val :=
    ⟨⟨t.val * 5000 + p.val, by have := p.isLt; omega⟩, rfl⟩
  show k1_pay1 (F := Ideal) (iblk1 V c 0 t) (iblk1 V c 1 t) (iblk1 V c 2 t) (iblk1 V c 3 t) (ix2 p q)
    = regionFn true (V c main_v67) (V c main_v38) (V c main_v68) (V c main_v69) (((cfg1.win 4).blk t).view.emb (ix2 p q))
  refine (pay1_apply (iblk1 V c 0 t) (iblk1 V c 1 t) (iblk1 V c 2 t) (iblk1 V c 3 t) p q).trans ?_
  refine Eq.trans ?_ (congrArg (regionFn true (V c main_v67) (V c main_v38) (V c main_v68) (V c main_v69))
    (result1_emb t p q r hr)).symm
  show actS true _ = actS true _
  refine congrArg (actS true) (congrArg₂ (· + ·) (Finset.sum_congr rfl fun k _ => ?_) (bias1_blk V c t q))
  exact congrArg₂ (· * ·) (congrArg₂ (· * ·) (sums1_blk V c t p k r hr) (table1_blk V c t p k r hr))
    (matrix1_blk V c t k q)

/-- An entry is in point `n`'s block of the result iff its row is one of `5000 n … 5000 n + 4999` (its channel any of
    the 64). -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v70).slice (win1_4.rect t)).set ↔ _
  rw [View.set_slice_whole, Rect.mem_set_unit]
  exact Iff.rfl

/-- Every entry of the result is written back by some point: row `r` lies in block `r / 5000`. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, e0, e1⟩ := idx1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

/-- The result array after the ten points: `regionFn` of the four arrays the second layer's dense part read, as it found
    them. -/
theorem region1_out : (dat1 (F := Ideal) V c).arrAt 4 cfg1.N
    = regionFn true (V c main_v67) (V c main_v38) (V c main_v68) (V c main_v69) :=
  (dat1 V c).arrAt_eq_of_cover 4 _ (fun t _ => flushed1_eq V c t) cover1

/-- The four arrays it reads are only read: none of their windows is written back. -/
theorem isIn1 : ∀ w : Fin cfg1.W, w ≠ 4 → (cfg1.win w).isOut = false :=
  (by decide : ∀ w : Fin 5, w ≠ 4 → (win1 w).isOut = false)

/-- So each of them ends as the second layer's dense part found it. -/
theorem region1_in (w : Fin cfg1.W) (hw : w ≠ 4) :
    (dat1 (F := Ideal) V c).arrAt w cfg1.N = V c (Pipeline.arrRef spec1 w) :=
  ((dat1 V c).arrAt_in w (isIn1 w hw) _).trans (A_eq1 V c w)

end Region1

/-! ## The third layer's dense part (no clamp) -/

section Region2

variable (V : (c : Dev nD) → (b : Ref sig .tc) → Buf (Elt Ideal) ((c : Thread nD τ).loc b)) (c : Dev nD)

/-- The arithmetic of one grid point at entry `(p, q)`, over any four loaded blocks: row `p` of `x0 · x1` times column `q`
    of `x2`, plus `x3 (0, q)` (the third layer does not clamp). -/
theorem pay2_apply (x0 x1 : Vec Ideal S5000x64 .f32) (x2 : Vec Ideal S64x64 .bf16) (x3 : Vec Ideal S1x64 .f32)
    (p : Fin 5000) (q : Fin 64) :
    k2_pay1 (F := Ideal) x0 x1 x2 x3 (ix2 p q)
      = actS false ((∑ k : Fin 64, (x0 (ix2 p k) * x1 (ix2 p k)) * x2 (ix2 k q)) + x3 (ix2 (0 : Fin 1) q)) := by
  unfold k2_pay1
  simp only [shapeCast_self]
  exact affine_apply x0 x1 x2 x3 p q

/-- Where the ten grid points put their blocks, decided over the grid: at point `n` the sums', the table's and the
    result's block is block `n` along the rows and the only block along the channels; the matrix's and the bias's is their
    only block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry `(p, k)` of the sums' block at point `n` is the sums' entry `(5000 n + p, k)`. -/
theorem sums2_blk (t : Fin cfg2.N) (p : Fin 5000) (k : Fin 64) (r : Fin 50000) (hr : r.val = t.val * 5000 + p.val) :
    (iblk2 V c 0 t : Vec Ideal S5000x64 .f32) (ix2 p k) = (V c main_v83 : S50000x64.Idx → EReal) (ix2 r k) := by
  obtain ⟨e0, e1, -⟩ := idx2 t
  show V c main_v83 (((cfg2.win 0).blk t).view.emb (ix2 p k)) = V c main_v83 _
  refine congrArg (V c main_v83) ?_
  funext a; apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Entry `(p, k)` of the table's block at point `n` is the table's entry `(5000 n + p, k)`. -/
theorem table2_blk (t : Fin cfg2.N) (p : Fin 5000) (k : Fin 64) (r : Fin 50000) (hr : r.val = t.val * 5000 + p.val) :
    (iblk2 V c 1 t : Vec Ideal S5000x64 .f32) (ix2 p k) = (V c main_v38 : S50000x64.Idx → EReal) (ix2 r k) := by
  obtain ⟨-, -, e0, e1, -⟩ := idx2 t
  show V c main_v38 (((cfg2.win 1).blk t).view.emb (ix2 p k)) = V c main_v38 _
  refine congrArg (V c main_v38) ?_
  funext a; apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

/-- The matrix's block at every point is the matrix. -/
theorem matrix2_blk (t : Fin cfg2.N) (k q : Fin 64) :
    (iblk2 V c 2 t : Vec Ideal S64x64 .bf16) (ix2 k q) = (V c main_v84 : S64x64.Idx → EReal) (ix2 k q) := by
  obtain ⟨-, -, -, -, e0, e1, -⟩ := idx2 t
  show V c main_v84 (((cfg2.win 2).blk t).view.emb (ix2 k q)) = V c main_v84 _
  refine congrArg (V c main_v84) ?_
  funext a; apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- The bias's block at every point is the bias row. -/
theorem bias2_blk (t : Fin cfg2.N) (q : Fin 64) :
    (iblk2 V c 3 t : Vec Ideal S1x64 .f32) (ix2 (0 : Fin 1) q) = (V c main_v85 : S1x64.Idx → EReal) (ix2 (0 : Fin 1) q) := by
  obtain ⟨-, -, -, -, -, -, e0, e1, -⟩ := idx2 t
  show V c main_v85 (((cfg2.win 3).blk t).view.emb (ix2 (0 : Fin 1) q)) = V c main_v85 _
  refine congrArg (V c main_v85) ?_
  funext a; apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

/-- Entry `(p, q)` of the result's block at point `n` sits in the result at `(5000 n + p, q)`. -/
theorem result2_emb (t : Fin cfg2.N) (p : Fin 5000) (q : Fin 64) (r : Fin 50000) (hr : r.val = t.val * 5000 + p.val) :
    ((cfg2.win 4).blk t).view.emb (ix2 p q) = ix2 r q := by
  obtain ⟨-, -, -, -, -, -, -, -, e0, e1⟩ := idx2 t
  funext a; apply Fin.ext
  match a with
  | ⟨0, _⟩ => show win2_4.index t (0 : Fin 2) * 5000 + 1 * p.val = r.val; rw [e0, hr]; omega
  | ⟨1, _⟩ => show win2_4.index t (1 : Fin 2) * 64 + 1 * q.val = q.val; rw [e1]; omega

/-- What grid point `n` writes back is block `n` of `regionFn` of the four arrays as the third layer's dense part found
    them: the body stores its arithmetic of the four loaded blocks, each loaded block is the rows `5000 n …` (or all) of
    its array, and the entry at node `5000 n + p` reads exactly those rows. -/
theorem flushed2_eq (t : Fin cfg2.N) :
    (dat2 (F := Ideal) V c).flushed 4 t = ((cfg2.win 4).blk t).view.read (Elt Ideal)
      (regionFn false (V c main_v83) (V c main_v38) (V c main_v84) (V c main_v85)) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x64) hz, View.ld_unit_zero (S := S1x64) hz]
  funext j
  have hN : t.val < 10 := lt_of_lt_of_eq t.isLt N_2
  obtain ⟨p, q, rfl⟩ : ∃ (p : Fin 5000) (q : Fin 64), j = ix2 p q := ⟨j 0, j 1, eq_ix2 j⟩
  obtain ⟨r, hr⟩ : ∃ r : Fin 50000, r.val = t.val * 5000 + p.val :=
    ⟨⟨t.val * 5000 + p.val, by have := p.isLt; omega⟩, rfl⟩
  show k2_pay1 (F := Ideal) (iblk2 V c 0 t) (iblk2 V c 1 t) (iblk2 V c 2 t) (iblk2 V c 3 t) (ix2 p q)
    = regionFn false (V c main_v83) (V c main_v38) (V c main_v84) (V c main_v85) (((cfg2.win 4).blk t).view.emb (ix2 p q))
  refine (pay2_apply (iblk2 V c 0 t) (iblk2 V c 1 t) (iblk2 V c 2 t) (iblk2 V c 3 t) p q).trans ?_
  refine Eq.trans ?_ (congrArg (regionFn false (V c main_v83) (V c main_v38) (V c main_v84) (V c main_v85))
    (result2_emb t p q r hr)).symm
  show actS false _ = actS false _
  refine congrArg (actS false) (congrArg₂ (· + ·) (Finset.sum_congr rfl fun k _ => ?_) (bias2_blk V c t q))
  exact congrArg₂ (· * ·) (congrArg₂ (· * ·) (sums2_blk V c t p k r hr) (table2_blk V c t p k r hr))
    (matrix2_blk V c t k q)

/-- An entry is in point `n`'s block of the result iff its row is one of `5000 n … 5000 n + 4999` (its channel any of
    the 64). -/
theorem mem_blk2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v86).slice (win2_4.rect t)).set ↔ _
  rw [View.set_slice_whole, Rect.mem_set_unit]
  exact Iff.rfl

/-- Every entry of the result is written back by some point: row `r` lies in block `r / 5000`. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, -, -, e0, e1⟩ := idx2 t
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 64 ≤ (i 1).val ∧ (i 1).val < win2_4.index t (1 : Fin 2) * 64 + 64
    rw [e1]; omega

/-- The result array after the ten points: `regionFn` of the four arrays the third layer's dense part read, as it found
    them. -/
theorem region2_out : (dat2 (F := Ideal) V c).arrAt 4 cfg2.N
    = regionFn false (V c main_v83) (V c main_v38) (V c main_v84) (V c main_v85) :=
  (dat2 V c).arrAt_eq_of_cover 4 _ (fun t _ => flushed2_eq V c t) cover2

/-- The four arrays it reads are only read: none of their windows is written back. -/
theorem isIn2 : ∀ w : Fin cfg2.W, w ≠ 4 → (cfg2.win w).isOut = false :=
  (by decide : ∀ w : Fin 5, w ≠ 4 → (win2 w).isOut = false)

/-- So each of them ends as the third layer's dense part found it. -/
theorem region2_in (w : Fin cfg2.W) (hw : w ≠ 4) :
    (dat2 (F := Ideal) V c).arrAt w cfg2.N = V c (Pipeline.arrRef spec2 w) :=
  ((dat2 V c).arrAt_in w (isIn2 w hw) _).trans (A_eq2 V c w)

end Region2

end Cert.KernelIdeal.RegionValue

end
-- ==== Proof.LibIdealLits.lean ====
import Idealize.ShloMosaic.PureOps.Ideal
import Idealize.ShloMosaic.PureOps.Ideal.Laws

/-!
# Three float literals at the ideal instance

The binary32 patterns of 1, of 16 and of minus infinity denote the extended reals 1, 16 and ⊥.
-/

namespace Cert.StepLaw

open Idealize.ShloMosaic

/-- The binary32 pattern of 1.0 denotes the real number 1. -/
theorem ofBits_one_f32 : Ideal.ofBits .f32 0x3F800000#32 = ((1 : ℝ) : EReal) := by
  simp [Ideal.ofBits, Ideal.ieee]
  norm_num
  rw [← EReal.coe_mul, ← EReal.coe_one]
  congr 1
  norm_num

/-- The binary32 pattern of 16.0 denotes the real number 16. -/
theorem ofBits_sixteen_f32 : Ideal.ofBits .f32 0x41800000#32 = ((16 : ℝ) : EReal) := by
  simp [Ideal.ofBits, Ideal.ieee]
  norm_num
  rw [← EReal.coe_mul]
  congr 1
  norm_num

/-- The binary32 pattern of minus infinity denotes ⊥. -/
theorem ofBits_neginf_f32 : Ideal.ofBits .f32 0xFF800000#32 = (⊥ : EReal) := by
  simp [Ideal.ofBits, Ideal.ieee]

end Cert.StepLaw
-- ==== Proof.LibMeanDiv.lean ====
/-
  A mean written two ways: the sum times the reciprocal of a clamped count, and the sum over the clamped count.

  For per-row sums `s : [N, C]` and per-row counts `deg : [N]`, one program multiplies `s` by the reciprocal
  `1 / d` of the clamped count `d = max(deg, 1)` (broadcast as a column, then across the `C` channels), another
  divides `s` by the broadcast `d`. On the extended reals division by `d ≠ 0` IS multiplication by `d⁻¹`, at the
  infinities too, and `1 / d = 1 · d⁻¹ = d⁻¹`; so the two agree wherever `d ≠ 0`, and `d ≥ 1 > 0` everywhere.
  No finiteness of `s` or of `deg` is needed.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost
import proofs.«176437_j81698867905110_1_alg».proof.Proof.LibIdealLits

noncomputable section

namespace Cert.LibMeanDiv

open Idealize.ShloMosaic Idealize.ShloMosaic.ValueIdx

/-- `s · (1 / d) = s / d` on the extended reals, for `d ≠ 0`. -/
theorem mul_one_div (s d : EReal) (hd : d ≠ 0) : s * Ideal.div 1 d = Ideal.div s d := by
  unfold Ideal.div
  rw [if_neg hd, if_neg hd, one_mul]

/-- A maximum against the f32 word of `1.0` is not zero. -/
theorem max_one_ne_zero (a : EReal) : max a (Ideal.ofBits .f32 0x3F800000#32) ≠ 0 := by
  have h1 : (0 : EReal) < Ideal.ofBits .f32 0x3F800000#32 := by
    rw [Cert.StepLaw.ofBits_one_f32]; exact_mod_cast one_pos
  exact ne_of_gt (lt_max_of_lt_right h1)

section
variable {N C : Nat}

/-- A per-row value broadcast as a column and then across the `C` channels reads, at `(r, q)`, the row's value. -/
theorem bcast_row (h1 : (⟨1, ![N]⟩ : Shape).BroadcastsInDim ⟨2, ![N, 1]⟩ ![0])
    (h2 : (⟨2, ![N, 1]⟩ : Shape).BroadcastsInDim ⟨2, ![N, C]⟩ ![0, 1]) {α : Type} (v : (⟨1, ![N]⟩ : Shape).Idx → α)
    (r : Fin N) (q : Fin C) :
    broadcastInDim ⟨2, ![N, C]⟩ ![0, 1] h2 (broadcastInDim ⟨2, ![N, 1]⟩ ![0] h1 v) (ix2 r q) = v (ix1 r) := by
  rw [broadcastInDim_apply ![0, 1] h2 _ (ix2 r q) (ix2 r (0 : Fin 1)) (fun a => by
    match a with
    | ⟨0, _⟩ =>
      show r.val = if N = 1 then 0 else r.val
      split
      · have := r.isLt; omega
      · rfl
    | ⟨1, _⟩ => rfl)]
  exact broadcastInDim_apply ![0] h1 v (ix2 r (0 : Fin 1)) (ix1 r) (fun a => by
    match a with
    | ⟨0, _⟩ =>
      show r.val = if N = 1 then 0 else r.val
      split
      · have := r.isLt; omega
      · rfl)

/-- The sums times the broadcast reciprocal of the clamped count are the sums divided by the broadcast clamped
    count. -/
theorem mean_eq (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (s : FVec Ideal ⟨2, ![N, C]⟩ .f32) (deg : FVec Ideal ⟨1, ![N]⟩ .f32) :
    mulf (F := Ideal) s (broadcastInDim ⟨2, ![N, C]⟩ ![0, 1] h2 (broadcastInDim ⟨2, ![N, 1]⟩ ![0] h1
        (Host.divf (F := Ideal) (broadcastInDim ⟨1, ![N]⟩ ![] h0 (constant (F := Ideal) ⟨0, ![]⟩ .f32 0x3F800000#32))
          (maximumf (F := Ideal) deg (broadcastInDim ⟨1, ![N]⟩ ![] h0 (constant (F := Ideal) ⟨0, ![]⟩ .f32 0x3F800000#32))))))
      = Host.divf (F := Ideal) s (broadcastInDim ⟨2, ![N, C]⟩ ![0, 1] h2 (broadcastInDim ⟨2, ![N, 1]⟩ ![0] h1
          (maximumf (F := Ideal) deg (broadcastInDim ⟨1, ![N]⟩ ![] h0 (constant (F := Ideal) ⟨0, ![]⟩ .f32 0x3F800000#32))))) := by
  funext i
  obtain ⟨r, q, rfl⟩ : ∃ (r : Fin N) (q : Fin C), i = ix2 r q := ⟨i 0, i 1, eq_ix2 i⟩
  show s (ix2 r q) * _ = Ideal.div (s (ix2 r q)) _
  rw [bcast_row h1 h2, bcast_row h1 h2]
  show s (ix2 r q) * Ideal.div (broadcastInDim ⟨1, ![N]⟩ ![] h0 (constant (F := Ideal) ⟨0, ![]⟩ .f32 0x3F800000#32) (ix1 r))
      (max (deg (ix1 r)) (broadcastInDim ⟨1, ![N]⟩ ![] h0 (constant (F := Ideal) ⟨0, ![]⟩ .f32 0x3F800000#32) (ix1 r)))
    = Ideal.div (s (ix2 r q)) (max (deg (ix1 r)) (broadcastInDim ⟨1, ![N]⟩ ![] h0 (constant (F := Ideal) ⟨0, ![]⟩ .f32 0x3F800000#32) (ix1 r)))
  rw [broadcastInDim_scalar_apply h0]
  show s (ix2 r q) * Ideal.div (Ideal.ofBits .f32 0x3F800000#32) (max (deg (ix1 r)) (Ideal.ofBits .f32 0x3F800000#32))
    = Ideal.div (s (ix2 r q)) (max (deg (ix1 r)) (Ideal.ofBits .f32 0x3F800000#32))
  have h := mul_one_div (s (ix2 r q)) _ (max_one_ne_zero (deg (ix1 r)))
  rw [← h, Cert.StepLaw.ofBits_one_f32]
  rfl

end

end Cert.LibMeanDiv

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.LibHostRows.lean ====
/-
  Host operations of a small dense network read at one index, over the extended reals.

  The general dot product contracting the last axis of a matrix with the last axis of a second matrix, or of a
  rank-3 array, is at each result index the sum over the contracted coordinate of the products of the two entries.
  The host's sum and maximum over the columns of a matrix are the finite sum and the fold of the maximum over the
  column coordinate. A broadcast reads the operand at the coordinates it keeps. A slice of one leading block
  followed by the cast that forgets the unit axis reads the array at that block.
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefOps

open Idealize.ShloMosaic Idealize.ShloMosaic.ValueIdx

/-! ## Dot products contracting the last axes -/

/-- An M × K matrix against an N × K matrix, contracting both second axes: entry (a, b) is the sum over c of
    A (a, c) * B (b, c). -/
theorem dotGeneral_rows_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- An M × K matrix against an N × J × K array, contracting the matrix's second axis with the array's last:
    entry (a, e, r) is the sum over c of A (a, c) * B (e, r, c). -/
theorem dotGeneral_rows3_apply {M K N J : ℕ} {φ₁ φ₂ : FTy}
    (w : DotDims.WF ⟨2, ![M, K]⟩ ⟨3, ![N, J, K]⟩ ⟨3, ![M, N, J]⟩ [1] [2] [0] [0, 1] [] [])
    (prec : Option ContractPrecision) (A : FVec Ideal ⟨2, ![M, K]⟩ φ₁) (B : FVec Ideal ⟨3, ![N, J, K]⟩ φ₂)
    (a : Fin M) (e : Fin N) (r : Fin J) :
    Host.dotGeneral (F := Ideal) (⟨[1], [2], [0], [0, 1], [], [], w⟩ : DotDims _ _ _) prec A B (ix3 a e r)
      = ∑ c : Fin K, A (ix2 a c) * B (ix3 e r c) := by
  simp only [Host.dotGeneral]
  rw [Ideal.dotGeneral_apply,
    ← Equiv.sum_comp (contrEquiv1 (⟨[1], [2], [0], [0, 1], [], [], w⟩ : DotDims _ _ _) K rfl rfl).symm]
  refine Finset.sum_congr rfl fun c _ => ?_
  have c2 := contrEquiv1_symm_val
    (⟨[1], [2], [0], [0, 1], [], [], w⟩ : DotDims ⟨2, ![M, K]⟩ ⟨3, ![N, J, K]⟩ ⟨3, ![M, N, J]⟩) K rfl rfl c
  have l2 : (⟨[1], [2], [0], [0, 1], [], [], w⟩ : DotDims ⟨2, ![M, K]⟩ ⟨3, ![N, J, K]⟩ ⟨3, ![M, N, J]⟩).lhsIdx (ix3 a e r)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [2], [0], [0, 1], [], [], w⟩ : DotDims ⟨2, ![M, K]⟩ ⟨3, ![N, J, K]⟩ ⟨3, ![M, N, J]⟩).rhsIdx (ix3 a e r)
      ((contrEquiv1 _ K rfl rfl).symm c) = ix3 e r c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-! ## Reductions over the columns of a matrix -/

/-- The reduced index a of [N] with k inserted on the dropped second axis is (a, k). -/
theorem lift_cols {N K : Nat} (h : (⟨2, ![N, K]⟩ : Shape).Reduces [1] ⟨1, ![N]⟩) (a : Fin N) (k : Fin K) :
    h.lift (ix1 a) k = ix2 a k := by
  funext b; refine Fin.ext ?_
  match b with
  | ⟨0, _⟩ => rfl
  | ⟨1, _⟩ => rfl

/-- The host's sum over the columns of [N, K] from the initial value 0, read at row a: the sum over k of the
    matrix at (a, k). -/
theorem hostReduceAdd_cols_apply {N K : Nat} {u : Shape} (x : FVec Ideal ⟨2, ![N, K]⟩ .f32)
    (h' : (⟨2, ![N, K]⟩ : Shape).ReducesTo [1] ⟨1, ![N]⟩) (hu : 0 < u.numel) (a : Fin N) :
    Host.reduceAdd (F := Ideal) x (constant (F := Ideal) u .f32 0x00000000#32) h' hu (ix1 a)
      = ∑ k : Fin K, x (ix2 a k) := by
  have h : (⟨2, ![N, K]⟩ : Shape).Reduces [1] ⟨1, ![N]⟩ := ⟨h'.1, Nat.zero_lt_one, h'.2⟩
  show Ideal.hostReduceAdd h' x (Ideal.ofBits .f32 0x00000000#32) (ix1 a) = _
  rw [Ideal.hostReduceAdd_single h' h x _ (ix1 a), Ideal.ofBits_zero_f32, zero_add]
  exact Finset.sum_congr rfl fun k _ => congrArg x (lift_cols h a k)

/-- The host's maximum over the columns of [N, K] from a constant initial value, read at row a: the fold of the
    maximum from that value over k of the matrix at (a, k). -/
theorem hostReduce_max_cols_apply {N K : Nat} {u : Shape} (x : FVec Ideal ⟨2, ![N, K]⟩ .f32) (bits : BitVec 32)
    (h' : (⟨2, ![N, K]⟩ : Shape).ReducesTo [1] ⟨1, ![N]⟩) (hu : 0 < u.numel) (a : Fin N) :
    Host.reduce FloatOps.maximumf x (constant (F := Ideal) u .f32 bits) h' hu (ix1 a)
      = (Finset.univ : Finset (Fin K)).fold max (Ideal.ofBits .f32 bits) (fun k => x (ix2 a k)) := by
  have h : (⟨2, ![N, K]⟩ : Shape).Reduces [1] ⟨1, ![N]⟩ := ⟨h'.1, Nat.zero_lt_one, h'.2⟩
  rw [Host.reduce_eq_fold_single FloatOps.maximumf x _ h' h hu]
  exact congrArg ((Finset.univ : Finset (Fin K)).fold max (Ideal.ofBits .f32 bits))
    (funext fun k => congrArg x (lift_cols h a k))

/-! ## Broadcasts -/

section Broadcast
variable {α : Type}

/-- A column [R, 1] broadcast along both axes of [R, C], read at (p, c): the column's entry of row p. -/
theorem broadcastInDim_col_mat_apply {R C : Nat} (x : (⟨2, ![R, 1]⟩ : Shape).Idx → α)
    (h : (⟨2, ![R, 1]⟩ : Shape).BroadcastsInDim ⟨2, ![R, C]⟩ ![0, 1]) (p : Fin R) (c : Fin C) :
    broadcastInDim ⟨2, ![R, C]⟩ ![0, 1] h x (ix2 p c) = x (ix2 p 0) :=
  broadcastInDim_apply _ h x (ix2 p c) (ix2 p 0) (fun a => match a with
    | ⟨0, _⟩ => by
      show p.val = if R = 1 then 0 else p.val
      have := p.isLt
      split <;> omega
    | ⟨1, _⟩ => rfl)

/-- A vector [R] broadcast along axis 0 of [R, 1], read at (e, z): the vector at e. -/
theorem broadcastInDim_vec_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector [C] broadcast along axis 1 of [1, C], read at (z, c): the vector at c. -/
theorem broadcastInDim_vec_row_apply {C : Nat} (x : (⟨1, ![C]⟩ : Shape).Idx → α)
    (h : (⟨1, ![C]⟩ : Shape).BroadcastsInDim ⟨2, ![1, C]⟩ ![1]) (z : Fin 1) (c : Fin C) :
    broadcastInDim ⟨2, ![1, C]⟩ ![1] h x (ix2 z c) = x (ix1 c) :=
  broadcastInDim_apply _ h x (ix2 z c) (ix1 c) (fun a => match a with
    | ⟨0, _⟩ => by
      show c.val = if C = 1 then 0 else c.val
      have := c.isLt
      split <;> omega)

/-- A row [1, C] broadcast along both axes of [R, C], read at (p, c): the row's entry of column c. -/
theorem broadcastInDim_row_mat_apply {R C : Nat} (x : (⟨2, ![1, C]⟩ : Shape).Idx → α)
    (h : (⟨2, ![1, C]⟩ : Shape).BroadcastsInDim ⟨2, ![R, C]⟩ ![0, 1]) (p : Fin R) (c : Fin C) :
    broadcastInDim ⟨2, ![R, C]⟩ ![0, 1] h x (ix2 p c) = x (ix2 0 c) :=
  broadcastInDim_apply _ h x (ix2 p c) (ix2 0 c) (fun a => match a with
    | ⟨0, _⟩ => rfl
    | ⟨1, _⟩ => by
      show c.val = if C = 1 then 0 else c.val
      have := c.isLt
      split <;> omega)

/-- A scalar broadcast to a vector reads the scalar everywhere. -/
theorem broadcastInDim_scalar_apply {R : Nat} (x : (⟨0, ![]⟩ : Shape).Idx → α)
    (h : (⟨0, ![]⟩ : Shape).BroadcastsInDim ⟨1, ![R]⟩ ![]) (k : (⟨0, ![]⟩ : Shape).Idx) (e : Fin R) :
    broadcastInDim ⟨1, ![R]⟩ ![] h x (ix1 e) = x k :=
  broadcastInDim_apply _ h x (ix1 e) k (fun a => a.elim0)

end Broadcast

/-! ## One leading block of an array, its unit axis forgotten -/

section Block
variable {α : Type}

/-- Block l of a [L, A] matrix, as a vector: entry e is the matrix at (l, e). -/
theorem block2_apply {L A : Nat} (o : Nat) (l : Fin L) (ho : l.val = o) (x : (⟨2, ![L, A]⟩ : Shape).Idx → α)
    (h : (⟨2, ![L, A]⟩ : Shape).Slices ![o, 0] ⟨2, ![1, A]⟩)
    (hc : (⟨2, ![1, A]⟩ : Shape).ShapeCasts ⟨1, ![A]⟩) (e : Fin A) :
    shapeCast ⟨1, ![A]⟩ (extractStridedSlice ⟨2, ![1, A]⟩ ![o, 0] x h) hc (ix1 e) = x (ix2 l e) := by
  refine (shapeCast_apply _ hc (ix1 e) (ix2 0 e) ?_).trans ?_
  · rw [Shape.rowMajor_val_one, Shape.rowMajor_val_two]
    show 0 * A + e.val = e.val
    rw [Nat.zero_mul, Nat.zero_add]
  · exact extractStridedSlice_apply _ x h (ix2 0 e) (ix2 l e) (fun a => match a with
      | ⟨0, _⟩ => by show l.val = o + 0; omega
      | ⟨1, _⟩ => by show e.val = 0 + e.val; omega)

/-- Block l of a [L, A, B] array, as a matrix: entry (e, d) is the array at (l, e, d). -/
theorem block3_apply {L A B : Nat} (o : Nat) (l : Fin L) (ho : l.val = o) (x : (⟨3, ![L, A, B]⟩ : Shape).Idx → α)
    (h : (⟨3, ![L, A, B]⟩ : Shape).Slices ![o, 0, 0] ⟨3, ![1, A, B]⟩)
    (hc : (⟨3, ![1, A, B]⟩ : Shape).ShapeCasts ⟨2, ![A, B]⟩) (e : Fin A) (d : Fin B) :
    shapeCast ⟨2, ![A, B]⟩ (extractStridedSlice ⟨3, ![1, A, B]⟩ ![o, 0, 0] x h) hc (ix2 e d) = x (ix3 l e d) := by
  refine (shapeCast_apply _ hc (ix2 e d) (ix3 0 e d) ?_).trans ?_
  · rw [Shape.rowMajor_val_two, Shape.rowMajor_val_three]
    show (0 * A + e.val) * B + d.val = e.val * B + d.val
    rw [Nat.zero_mul, Nat.zero_add]
  · exact extractStridedSlice_apply _ x h (ix3 0 e d) (ix3 l e d) (fun a => match a with
      | ⟨0, _⟩ => by show l.val = o + 0; omega
      | ⟨1, _⟩ => by show e.val = 0 + e.val; omega
      | ⟨2, _⟩ => by show d.val = 0 + d.val; omega)

/-- Block l of a [L, A, B, C] array, as a rank-3 array: entry (e, r, d) is the array at (l, e, r, d). -/
theorem block4_apply {L A B C : Nat} (o : Nat) (l : Fin L) (ho : l.val = o)
    (x : (⟨4, ![L, A, B, C]⟩ : Shape).Idx → α)
    (h : (⟨4, ![L, A, B, C]⟩ : Shape).Slices ![o, 0, 0, 0] ⟨4, ![1, A, B, C]⟩)
    (hc : (⟨4, ![1, A, B, C]⟩ : Shape).ShapeCasts ⟨3, ![A, B, C]⟩) (e : Fin A) (r : Fin B) (d : Fin C) :
    shapeCast ⟨3, ![A, B, C]⟩ (extractStridedSlice ⟨4, ![1, A, B, C]⟩ ![o, 0, 0, 0] x h) hc (ix3 e r d)
      = x (ix4 l e r d) := by
  refine (shapeCast_apply _ hc (ix3 e r d) (ix4 0 e r d) ?_).trans ?_
  · rw [Shape.rowMajor_val_three, Shape.rowMajor_val_four]
    show ((0 * A + e.val) * B + r.val) * C + d.val = (e.val * B + r.val) * C + d.val
    rw [Nat.zero_mul, Nat.zero_add]
  · exact extractStridedSlice_apply _ x h (ix4 0 e r d) (ix4 l e r d) (fun a => match a with
      | ⟨0, _⟩ => by show l.val = o + 0; omega
      | ⟨1, _⟩ => by show e.val = 0 + e.val; omega
      | ⟨2, _⟩ => by show r.val = 0 + r.val; omega
      | ⟨3, _⟩ => by show d.val = 0 + d.val; omega)

end Block

end Cert.RefOps

end
-- ==== Proof.LayerLaw.lean ====
/-
  The layer of a graph convolution with mean aggregation, read entry by entry.

  For per-node sums `s : [N, C]`, in-degrees `deg : [N]`, a matrix `W : [C, C]` and a bias `b : [C]`, the layer at node
  `r` and channel `j` is `act (∑ k, mean (s (r, k)) (deg r) * W (k, j) + b j)`, where `mean x d` is `x / max d 1` where
  `d > 0` and `0` elsewhere. Two whole-array programs compute it. One divides the sums by the clamped degree broadcast
  across the channels, selects against zero, multiplies by the matrix, adds the bias broadcast over the nodes, and clamps.
  The other multiplies the sums by a table holding `1 / max d 1` where `d > 0` and `0` elsewhere. Both are the layer at
  every entry: each broadcast reads the operand at the coordinates it keeps, the product of two matrices at an entry is
  the sum over the contracted coordinate, and on the extended reals `x * (1 / d) = x / d` for `d ≠ 0` (at the infinities
  too) while `x * 0 = 0` for every `x`. No finiteness of the sums or of the degrees is used.
-/
import proofs.«176437_j81698867905110_1_alg».proof.Proof.Spec
import proofs.«176437_j81698867905110_1_alg».proof.Proof.LibMeanDiv
import proofs.«176437_j81698867905110_1_alg».proof.Proof.LibHostDotIx
import proofs.«176437_j81698867905110_1_alg».proof.Proof.LibHostRows
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.Gcn

open Cert.ReferenceIdeal Cert.ReferenceIdeal.Gen Idealize.ShloMosaic Idealize.ShloMosaic.TcCoe Idealize.ShloMosaic.ValueIdx

/-! The reads of the arrays at one entry and the laws of one entry's arithmetic; the two theorems about whole arrays follow them. -/
namespace LayerLaw

/-! ## Reads of the broadcasts -/

/-- A per-node value broadcast as a column and then across the channels reads, at `(r, k)`, the node's value. -/
theorem node_bcast_apply {α : Type} (v : S50000.Idx → α) (r : Fin 50000) (k : Fin 64) :
    broadcastInDim S50000x64 ![0, 1] bcast_S50000x1_S50000x64_0_1
      (broadcastInDim S50000x1 ![0] bcast_S50000_S50000x1_0 v) (ix2 r k) = v (ix1 r) :=
  Cert.LibMeanDiv.bcast_row bcast_S50000_S50000x1_0 bcast_S50000x1_S50000x64_0_1 v r k

/-- The comparison of the degrees' column with the zero column, broadcast across the channels, reads at `(r, k)` the
    comparison of node `r`'s degree with zero. -/
theorem cond_apply (deg : NodeV) (r : Fin 50000) (k : Fin 64) :
    broadcastInDim S50000x64 ![0, 1] bcast_S50000x1_S50000x64_0_1
      (cmpf (F := Ideal) (φ := .f32) .ogt (broadcastInDim S50000x1 ![0] bcast_S50000_S50000x1_0 deg)
        (broadcastInDim S50000x1 ![] bcast_S_S50000x1 (constant (F := Ideal) S_ .f32 0x00000000#32))) (ix2 r k)
      = FloatOps.cmpf (F := Ideal) (φ := .f32) .ogt (deg (ix1 r)) (FloatOps.ofBits (F := Ideal) .f32 0x00000000#32) := by
  rw [Cert.RefOps.broadcastInDim_col_mat_apply]
  show FloatOps.cmpf (F := Ideal) (φ := .f32) .ogt
      (broadcastInDim S50000x1 ![0] bcast_S50000_S50000x1_0 deg (ix2 r 0))
      (broadcastInDim S50000x1 ![] bcast_S_S50000x1 (constant (F := Ideal) S_ .f32 0x00000000#32) (ix2 r 0)) = _
  rw [Cert.RefOps.broadcastInDim_vec_col_apply, broadcastInDim_scalar_apply]
  rfl

/-- The degrees clamped below by one, broadcast as a column and across the channels, read at `(r, k)` the maximum of
    node `r`'s degree and one. -/
theorem clamp_apply (deg : NodeV) (r : Fin 50000) (k : Fin 64) :
    broadcastInDim S50000x64 ![0, 1] bcast_S50000x1_S50000x64_0_1
      (broadcastInDim S50000x1 ![0] bcast_S50000_S50000x1_0
        (maximumf (F := Ideal) (φ := .f32) deg
          (broadcastInDim S50000 ![] bcast_S_S50000 (constant (F := Ideal) S_ .f32 0x3F800000#32)))) (ix2 r k)
      = FloatOps.maximumf (F := Ideal) (φ := .f32) (deg (ix1 r)) (FloatOps.ofBits (F := Ideal) .f32 0x3F800000#32) := by
  rw [node_bcast_apply]
  show FloatOps.maximumf (F := Ideal) (φ := .f32) (deg (ix1 r))
      (broadcastInDim S50000 ![] bcast_S_S50000 (constant (F := Ideal) S_ .f32 0x3F800000#32) (ix1 r)) = _
  rw [broadcastInDim_scalar_apply]
  rfl

/-- The zero scalar broadcast to `[N, C]` reads zero everywhere. -/
theorem zero_apply (i : S50000x64.Idx) :
    broadcastInDim S50000x64 ![] bcast_S_S50000x64 (id (constant (F := Ideal) S_ .f32 0x00000000#32)) i
      = FloatOps.ofBits (F := Ideal) .f32 0x00000000#32 := by
  rw [broadcastInDim_scalar_apply]
  rfl

/-- The bias broadcast as one row and then over the nodes reads, at `(r, j)`, the bias's entry `j`. -/
theorem bias_apply (b : Bias) (r : Fin 50000) (j : Fin 64) :
    broadcastInDim S50000x64 ![0, 1] bcast_S1x64_S50000x64_0_1 (broadcastInDim S1x64 ![1] bcast_S64_S1x64_1 b) (ix2 r j)
      = b (ix1 j) := by
  rw [Cert.RefOps.broadcastInDim_row_mat_apply, Cert.RefOps.broadcastInDim_vec_row_apply]

/-! ## The mean taken by division, at one entry -/

/-- The sums over the broadcast clamped degree, selected against zero by the broadcast comparison, read at `(r, k)` the
    mean of the entry `(r, k)` of the sums over node `r`'s degree. -/
theorem meanArr_apply (s : Mat) (deg : NodeV) (r : Fin 50000) (k : Fin 64) :
    select
        (broadcastInDim S50000x64 ![0, 1] bcast_S50000x1_S50000x64_0_1
          (cmpf (F := Ideal) (φ := .f32) .ogt (broadcastInDim S50000x1 ![0] bcast_S50000_S50000x1_0 deg)
            (broadcastInDim S50000x1 ![] bcast_S_S50000x1 (constant (F := Ideal) S_ .f32 0x00000000#32))))
        (Host.divf (F := Ideal) (φ := .f32) s
          (broadcastInDim S50000x64 ![0, 1] bcast_S50000x1_S50000x64_0_1
            (broadcastInDim S50000x1 ![0] bcast_S50000_S50000x1_0
              (maximumf (F := Ideal) (φ := .f32) deg (broadcastInDim S50000 ![] bcast_S_S50000 (constant (F := Ideal) S_ .f32 0x3F800000#32))))))
        (broadcastInDim S50000x64 ![] bcast_S_S50000x64 (id (constant (F := Ideal) S_ .f32 0x00000000#32))) (ix2 r k)
      = meanS (s (ix2 r k)) (deg (ix1 r)) := by
  show Scalar.select
      (broadcastInDim S50000x64 ![0, 1] bcast_S50000x1_S50000x64_0_1
          (cmpf (F := Ideal) (φ := .f32) .ogt (broadcastInDim S50000x1 ![0] bcast_S50000_S50000x1_0 deg)
            (broadcastInDim S50000x1 ![] bcast_S_S50000x1 (constant (F := Ideal) S_ .f32 0x00000000#32))) (ix2 r k))
      (FloatOps.hostDivf (F := Ideal) (φ := .f32) (s (ix2 r k))
        (broadcastInDim S50000x64 ![0, 1] bcast_S50000x1_S50000x64_0_1
            (broadcastInDim S50000x1 ![0] bcast_S50000_S50000x1_0
              (maximumf (F := Ideal) (φ := .f32) deg (broadcastInDim S50000 ![] bcast_S_S50000 (constant (F := Ideal) S_ .f32 0x3F800000#32)))) (ix2 r k)))
      (broadcastInDim S50000x64 ![] bcast_S_S50000x64 (id (constant (F := Ideal) S_ .f32 0x00000000#32)) (ix2 r k))
    = _
  rw [cond_apply, clamp_apply, zero_apply]
  rfl

/-! ## The layer on whole arrays is the layer at every entry -/

/-- The clamp below by zero on a whole array is the clamp of each entry. -/
theorem act_apply (relu : Bool) (v : Mat) (i : S50000x64.Idx) : act relu v i = actS relu (v i) := by
  cases relu
  · rfl
  · show FloatOps.maximumf (F := Ideal) (φ := .f32) (v i)
        (broadcastInDim S50000x64 ![] bcast_S_S50000x64 (constant (F := Ideal) S_ .f32 0x00000000#32) i) = _
    rw [broadcastInDim_scalar_apply]
    rfl

/-- The product of a matrix of means with the layer's matrix, at one entry. -/
theorem dot_apply (A : Mat) (W : Wt) (r : Fin 50000) (j : Fin 64) :
    Host.dotGeneral (F := Ideal) (φ₁ := .f32) (φ₂ := .f32) dot_S50000x64_S64x64_S50000x64_1_0_0_1_n_n none A W (ix2 r j)
      = ∑ k : Fin 64, A (ix2 r k) * W (ix2 k j) :=
  Cert.LibHostDotIx.dotGeneral_apply dot_S50000x64_S64x64_S50000x64_1_0_0_1_n_n.wf none A W r j

/-- Before the clamp, for any degrees: the row of means times column `j` of the matrix, plus the bias's entry `j`. -/
theorem pre_apply (s : Mat) (deg : NodeV) (W : Wt) (b : Bias) (r : Fin 50000) (j : Fin 64) :
    addf (F := Ideal)
      (Host.dotGeneral (F := Ideal) (φ₁ := .f32) (φ₂ := .f32) dot_S50000x64_S64x64_S50000x64_1_0_0_1_n_n none
        (select
        (broadcastInDim S50000x64 ![0, 1] bcast_S50000x1_S50000x64_0_1
          (cmpf (F := Ideal) (φ := .f32) .ogt (broadcastInDim S50000x1 ![0] bcast_S50000_S50000x1_0 deg)
            (broadcastInDim S50000x1 ![] bcast_S_S50000x1 (constant (F := Ideal) S_ .f32 0x00000000#32))))
        (Host.divf (F := Ideal) (φ := .f32) s
          (broadcastInDim S50000x64 ![0, 1] bcast_S50000x1_S50000x64_0_1
            (broadcastInDim S50000x1 ![0] bcast_S50000_S50000x1_0
              (maximumf (F := Ideal) (φ := .f32) deg (broadcastInDim S50000 ![] bcast_S_S50000 (constant (F := Ideal) S_ .f32 0x3F800000#32))))))
        (broadcastInDim S50000x64 ![] bcast_S_S50000x64 (id (constant (F := Ideal) S_ .f32 0x00000000#32))))
        W)
      (broadcastInDim S50000x64 ![0, 1] bcast_S1x64_S50000x64_0_1 (broadcastInDim S1x64 ![1] bcast_S64_S1x64_1 b)) (ix2 r j)
      = (∑ k : Fin 64, meanS (s (ix2 r k)) (deg (ix1 r)) * W (ix2 k j)) + b (ix1 j) := by
  show Host.dotGeneral (F := Ideal) (φ₁ := .f32) (φ₂ := .f32) dot_S50000x64_S64x64_S50000x64_1_0_0_1_n_n none
        (select
        (broadcastInDim S50000x64 ![0, 1] bcast_S50000x1_S50000x64_0_1
          (cmpf (F := Ideal) (φ := .f32) .ogt (broadcastInDim S50000x1 ![0] bcast_S50000_S50000x1_0 deg)
            (broadcastInDim S50000x1 ![] bcast_S_S50000x1 (constant (F := Ideal) S_ .f32 0x00000000#32))))
        (Host.divf (F := Ideal) (φ := .f32) s
          (broadcastInDim S50000x64 ![0, 1] bcast_S50000x1_S50000x64_0_1
            (broadcastInDim S50000x1 ![0] bcast_S50000_S50000x1_0
              (maximumf (F := Ideal) (φ := .f32) deg (broadcastInDim S50000 ![] bcast_S_S50000 (constant (F := Ideal) S_ .f32 0x3F800000#32))))))
        (broadcastInDim S50000x64 ![] bcast_S_S50000x64 (id (constant (F := Ideal) S_ .f32 0x00000000#32))))
        W (ix2 r j)
      + broadcastInDim S50000x64 ![0, 1] bcast_S1x64_S50000x64_0_1 (broadcastInDim S1x64 ![1] bcast_S64_S1x64_1 b) (ix2 r j) = _
  rw [bias_apply, dot_apply]
  refine congrArg (fun t : EReal => t + b (ix1 j)) ?_
  exact Finset.sum_congr rfl fun k _ => congrArg (fun t : EReal => t * W (ix2 k j)) (meanArr_apply s deg r k)

/-- Before the clamp: the row of means times column `j` of the matrix, plus the bias's entry `j`. -/
theorem refPre_apply (s : Mat) (col : EdgeIx) (W : Wt) (b : Bias) (r : Fin 50000) (j : Fin 64) :
    refPre s col W b (ix2 r j)
      = (∑ k : Fin 64, meanS (s (ix2 r k)) (degOf col (ix1 r)) * W (ix2 k j)) + b (ix1 j) :=
  pre_apply s (degOf col) W b r j

/-- The layer on whole arrays, at one entry. -/
theorem refTail_apply (relu : Bool) (s : Mat) (col : EdgeIx) (W : Wt) (b : Bias) (r : Fin 50000) (j : Fin 64) :
    refTail relu s col W b (ix2 r j) = layerAt relu s (degOf col) W b r j :=
  (act_apply relu (refPre s col W b) (ix2 r j)).trans (congrArg (actS relu) (refPre_apply s col W b r j))

/-! ## The mean taken by the table of selected reciprocals -/

/-- The selected reciprocal of one in-degree: `1 / max d 1` where `d` is positive, zero elsewhere. -/
def recipS (d : EReal) : EReal :=
  Scalar.select (FloatOps.cmpf (F := Ideal) (φ := .f32) .ogt d (FloatOps.ofBits (F := Ideal) .f32 0x00000000#32))
    (FloatOps.hostDivf (F := Ideal) (φ := .f32) (FloatOps.ofBits (F := Ideal) .f32 0x3F800000#32)
      (FloatOps.maximumf (F := Ideal) (φ := .f32) d (FloatOps.ofBits (F := Ideal) .f32 0x3F800000#32)))
    (FloatOps.ofBits (F := Ideal) .f32 0x00000000#32)

/-- A sum times the selected reciprocal of the in-degree is the mean: where the in-degree is positive,
    `x * (1 / max d 1) = x / max d 1` because `max d 1 ≠ 0`; elsewhere `x * 0 = 0`, for every extended real `x`. -/
theorem mul_recipS (x d : EReal) : x * recipS d = meanS x d := by
  unfold recipS meanS Scalar.select
  by_cases h : FloatOps.cmpf (F := Ideal) (φ := .f32) .ogt d (FloatOps.ofBits (F := Ideal) .f32 0x00000000#32) = 1
  · rw [if_pos h, if_pos h]
    show x * Ideal.div (Ideal.ofBits .f32 0x3F800000#32) (max d (Ideal.ofBits .f32 0x3F800000#32))
      = Ideal.div x (max d (Ideal.ofBits .f32 0x3F800000#32))
    rw [← Cert.LibMeanDiv.mul_one_div x _ (Cert.LibMeanDiv.max_one_ne_zero d), Cert.StepLaw.ofBits_one_f32]
    rfl
  · rw [if_neg h, if_neg h]
    show x * Ideal.ofBits .f32 0x00000000#32 = Ideal.ofBits .f32 0x00000000#32
    rw [Ideal.ofBits_zero_f32, mul_zero]

/-- A scalar broadcast to one value per node reads the scalar at every node. -/
theorem node_lit_apply {α : Type} (x : S_.Idx → α) (r : Fin 50000) :
    broadcastInDim S50000 ![] bcast_S_S50000 x (ix1 r) = x ix0 :=
  broadcastInDim_scalar_apply bcast_S_S50000 x (ix1 r)

/-- The table of selected reciprocals of any degrees reads, at `(r, k)`, the selected reciprocal of node `r`'s degree. -/
theorem invTab_apply (deg : NodeV) (r : Fin 50000) (k : Fin 64) :
    broadcastInDim S50000x64 ![0, 1] bcast_S50000x1_S50000x64_0_1
      (broadcastInDim S50000x1 ![0] bcast_S50000_S50000x1_0
        (select (cmpf (F := Ideal) (φ := .f32) .ogt deg (broadcastInDim S50000 ![] bcast_S_S50000 (constant (F := Ideal) S_ .f32 0x00000000#32)))
          (Host.divf (F := Ideal) (φ := .f32) (broadcastInDim S50000 ![] bcast_S_S50000 (constant (F := Ideal) S_ .f32 0x3F800000#32))
            (maximumf (F := Ideal) (φ := .f32) deg (broadcastInDim S50000 ![] bcast_S_S50000 (constant (F := Ideal) S_ .f32 0x3F800000#32))))
          (broadcastInDim S50000 ![] bcast_S_S50000 (id (constant (F := Ideal) S_ .f32 0x00000000#32))))) (ix2 r k)
      = recipS (deg (ix1 r)) := by
  rw [node_bcast_apply]
  show Scalar.select
      (FloatOps.cmpf (F := Ideal) (φ := .f32) .ogt (deg (ix1 r))
        (broadcastInDim S50000 ![] bcast_S_S50000 (constant (F := Ideal) S_ .f32 0x00000000#32) (ix1 r)))
      (FloatOps.hostDivf (F := Ideal) (φ := .f32)
        (broadcastInDim S50000 ![] bcast_S_S50000 (constant (F := Ideal) S_ .f32 0x3F800000#32) (ix1 r))
        (FloatOps.maximumf (F := Ideal) (φ := .f32) (deg (ix1 r))
          (broadcastInDim S50000 ![] bcast_S_S50000 (constant (F := Ideal) S_ .f32 0x3F800000#32) (ix1 r))))
      (broadcastInDim S50000 ![] bcast_S_S50000 (id (constant (F := Ideal) S_ .f32 0x00000000#32)) (ix1 r)) = _
  simp only [node_lit_apply]
  rfl

/-- The table of selected reciprocals of the in-degrees, at one entry. -/
theorem invbOf_apply (col : EdgeIx) (r : Fin 50000) (k : Fin 64) :
    invbOf col (ix2 r k) = recipS (degOf col (ix1 r)) :=
  invTab_apply (degOf col) r k

/-- The bias as one row reads, at `(0, j)`, the bias's entry `j`. -/
theorem bias_row_apply (b : Bias) (hb : S64.ShapeCasts S1x64) (j : Fin 64) :
    shapeCast S1x64 b hb (ix2 (0 : Fin 1) j) = b (ix1 j) :=
  shapeCast_a_1a_apply b hb 0 j

/-- A dense block fed, for some degrees, a table that holds their selected reciprocals along row `r`, the matrix
    narrowed to bf16 (the identity on the extended reals) and the bias as one row computes the layer at `(r, j)`. -/
theorem regionAt_of_table (relu : Bool) (s t : Mat) (deg : NodeV) (W : Wt) (b : Bias)
    (hW : FTy.bits .bf16 < FTy.bits .f32) (hb : S64.ShapeCasts S1x64) (r : Fin 50000) (j : Fin 64)
    (ht : ∀ k : Fin 64, t (ix2 r k) = recipS (deg (ix1 r))) :
    regionAt relu s t (truncf (F := Ideal) .bf16 W hW) (shapeCast S1x64 b hb) r j = layerAt relu s deg W b r j := by
  unfold regionAt layerAt
  rw [bias_row_apply]
  refine congrArg (fun u : EReal => actS relu (u + b (ix1 j))) (Finset.sum_congr rfl fun k _ => ?_)
  rw [ht k, mul_recipS]
  rfl

end LayerLaw

open LayerLaw

/-! ## The two programs' layers on whole arrays -/

/-- The layer written with whole-array operations is the layer at every entry. -/
theorem refTail_eq (relu : Bool) (s : Mat) (col : EdgeIx) (W : Wt) (b : Bias) :
    refTail relu s col W b = layerFn relu s (degOf col) W b := by
  funext i
  obtain ⟨r, j, rfl⟩ : ∃ (r : Fin 50000) (j : Fin 64), i = ix2 r j := ⟨i 0, i 1, eq_ix2 i⟩
  exact (refTail_apply relu s col W b r j).trans (layerFn_apply relu s (degOf col) W b r j).symm

/-- A dense block fed the table of selected reciprocals, the matrix narrowed to bf16 and the bias as one row computes the layer. -/
theorem regionFn_eq (relu : Bool) (s : Mat) (col : EdgeIx) (W : Wt) (b : Bias)
    (hW : FTy.bits .bf16 < FTy.bits .f32) (hb : S64.ShapeCasts S1x64) :
    regionFn relu s (invbOf col) (truncf (F := Ideal) .bf16 W hW) (shapeCast S1x64 b hb) = layerFn relu s (degOf col) W b := by
  funext i
  obtain ⟨r, j, rfl⟩ : ∃ (r : Fin 50000) (j : Fin 64), i = ix2 r j := ⟨i 0, i 1, eq_ix2 i⟩
  exact (regionFn_apply relu s (invbOf col) _ _ r j).trans
    ((regionAt_of_table relu s (invbOf col) (degOf col) W b hW hb r j (fun k => invbOf_apply col r k)).trans
      (layerFn_apply relu s (degOf col) W b r j).symm)

end Cert.Gcn

end
-- ==== Proof.KernValue.lean ====
/-
  The kernel program's result as the three layers of the network.

  The buffer contents at the ten segment boundaries are followed from the launch to the return. Before the first dense block
  the host has left the edge data, the table of selected reciprocals, the first propagation step and the first layer's
  parameters; a dense block's output array is the block function of its four input arrays, which with that table is the
  layer; a block leaves every buffer that is not one of its arrays alone, and its input arrays as it found them; each later
  stretch of host operations computes the next propagation step from the block's output and leaves the edge data and the
  table alone. So the last block's output array is layer three of layer two of layer one of the input features.
-/
import proofs.«176437_j81698867905110_1_alg».proof.Proof.Gen.KernelIdeal.Frame
import proofs.«176437_j81698867905110_1_alg».proof.Proof.Net
import proofs.«176437_j81698867905110_1_alg».proof.Proof.KernHost
import proofs.«176437_j81698867905110_1_alg».proof.Proof.KernRegion
import proofs.«176437_j81698867905110_1_alg».proof.Proof.LayerLaw

noncomputable section

namespace Cert.KernelIdeal.KernValue

open Cert.KernelIdeal Cert.KernelIdeal.Gen Cert.KernelIdeal.KernHost Cert.KernelIdeal.RegionValue Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at launch -/

abbrev aX : Mat := m ((c : Thread nD τ).loc main_arg0)
abbrev aEi : (⟨Cert.ReferenceIdeal.S2x800000, .i32⟩ : BufTy).Contents (Elt Ideal) := m ((c : Thread nD τ).loc main_arg1)
abbrev aW : EdgeW := m ((c : Thread nD τ).loc main_arg2)
abbrev aW1 : Wt := m ((c : Thread nD τ).loc main_arg3)
abbrev aB1 : Bias := m ((c : Thread nD τ).loc main_arg4)
abbrev aW2 : Wt := m ((c : Thread nD τ).loc main_arg5)
abbrev aB2 : Bias := m ((c : Thread nD τ).loc main_arg6)
abbrev aW3 : Wt := m ((c : Thread nD τ).loc main_arg7)
abbrev aB3 : Bias := m ((c : Thread nD τ).loc main_arg8)

/-- The sources, the destinations and the edge weights of the launch's edge list. -/
abbrev row : EdgeIx := rowOf (aEi m c)
abbrev col : EdgeIx := colOf (aEi m c)
abbrev ew : EdgeW := ewOf (aW m c) (row m c) (col m c)

/-- The features after the first, the second and the third layer. -/
abbrev h1 : Mat := layerOf true (aX m c) (aEi m c) (aW m c) (aW1 m c) (aB1 m c)
abbrev h2 : Mat := layerOf true (h1 m c) (aEi m c) (aW m c) (aW2 m c) (aB2 m c)
abbrev h3 : Mat := layerOf false (h2 m c) (aEi m c) (aW m c) (aW3 m c) (aB3 m c)

/-! ## At the first dense block's entry -/

theorem w5 (b : DevRef τ sig) : W5 (F := Ideal) m ρ c b = after opsPre (W0 (F := Ideal) m ρ c) b :=
  congrFun (after_pre (W0 (F := Ideal) m ρ c)) b

theorem w5_row : W5 (F := Ideal) m ρ c (Proc.devRef .tc main_v1) = row m c := (w5 m ρ c _).trans (pre_row _)
theorem w5_col : W5 (F := Ideal) m ρ c (Proc.devRef .tc main_v3) = col m c := (w5 m ρ c _).trans (pre_col _)
theorem w5_ew : W5 (F := Ideal) m ρ c (Proc.devRef .tc main_v29) = ew m c := (w5 m ρ c _).trans (pre_ew _)
theorem w5_table : W5 (F := Ideal) m ρ c (Proc.devRef .tc main_v38) = invbOf (col m c) := (w5 m ρ c _).trans (pre_table _)
theorem w5_sums : W5 (F := Ideal) m ρ c (Proc.devRef .tc main_v51) = stage (aX m c) (row m c) (col m c) (ew m c) :=
  (w5 m ρ c _).trans (pre_sums _)
theorem w5_matrix : W5 (F := Ideal) m ρ c (Proc.devRef .tc main_v52) = truncf (F := Ideal) .bf16 (aW1 m c) bitsLt_bf16_f32 :=
  (w5 m ρ c _).trans (pre_matrix _)
theorem w5_bias : W5 (F := Ideal) m ρ c (Proc.devRef .tc main_v53) = shapeCast S1x64 (aB1 m c) shapeCasts_S64_S1x64 :=
  (w5 m ρ c _).trans (pre_bias _)
theorem w5_arg5 : W5 (F := Ideal) m ρ c (Proc.devRef .tc main_arg5) = aW2 m c := (w5 m ρ c _).trans (pre_keep_arg5 _)
theorem w5_arg6 : W5 (F := Ideal) m ρ c (Proc.devRef .tc main_arg6) = aB2 m c := (w5 m ρ c _).trans (pre_keep_arg6 _)
theorem w5_arg7 : W5 (F := Ideal) m ρ c (Proc.devRef .tc main_arg7) = aW3 m c := (w5 m ρ c _).trans (pre_keep_arg7 _)
theorem w5_arg8 : W5 (F := Ideal) m ρ c (Proc.devRef .tc main_arg8) = aB3 m c := (w5 m ρ c _).trans (pre_keep_arg8 _)

/-! ## After the first dense block -/

theorem w6_out : W6 (F := Ideal) m ρ c (Proc.devRef .tc main_v54) = h1 m c := by
  refine (W6_arr (F := Ideal) m ρ c 4).trans ?_
  rw [region0_out]
  show regionFn true (W5 (F := Ideal) m ρ c (Proc.devRef .tc main_v51)) (W5 (F := Ideal) m ρ c (Proc.devRef .tc main_v38))
    (W5 (F := Ideal) m ρ c (Proc.devRef .tc main_v52)) (W5 (F := Ideal) m ρ c (Proc.devRef .tc main_v53)) = _
  rw [w5_sums, w5_table, w5_matrix, w5_bias]
  exact regionFn_eq true _ _ _ _ _ _

theorem w6_table : W6 (F := Ideal) m ρ c (Proc.devRef .tc main_v38) = invbOf (col m c) := by
  refine (W6_arr (F := Ideal) m ρ c 1).trans ?_
  rw [region0_in (V5 (F := Ideal) m ρ) c 1 (by decide)]
  exact w5_table m ρ c

theorem w6_row : W6 (F := Ideal) m ρ c (Proc.devRef .tc main_v1) = row m c := (W6_of_ne (F := Ideal) m ρ c main_v1 (by decide)).trans (w5_row m ρ c)
theorem w6_col : W6 (F := Ideal) m ρ c (Proc.devRef .tc main_v3) = col m c := (W6_of_ne (F := Ideal) m ρ c main_v3 (by decide)).trans (w5_col m ρ c)
theorem w6_ew : W6 (F := Ideal) m ρ c (Proc.devRef .tc main_v29) = ew m c := (W6_of_ne (F := Ideal) m ρ c main_v29 (by decide)).trans (w5_ew m ρ c)
theorem w6_arg5 : W6 (F := Ideal) m ρ c (Proc.devRef .tc main_arg5) = aW2 m c := (W6_of_ne (F := Ideal) m ρ c main_arg5 (by decide)).trans (w5_arg5 m ρ c)
theorem w6_arg6 : W6 (F := Ideal) m ρ c (Proc.devRef .tc main_arg6) = aB2 m c := (W6_of_ne (F := Ideal) m ρ c main_arg6 (by decide)).trans (w5_arg6 m ρ c)
theorem w6_arg7 : W6 (F := Ideal) m ρ c (Proc.devRef .tc main_arg7) = aW3 m c := (W6_of_ne (F := Ideal) m ρ c main_arg7 (by decide)).trans (w5_arg7 m ρ c)
theorem w6_arg8 : W6 (F := Ideal) m ρ c (Proc.devRef .tc main_arg8) = aB3 m c := (W6_of_ne (F := Ideal) m ρ c main_arg8 (by decide)).trans (w5_arg8 m ρ c)

/-! ## At the second dense block's entry -/

theorem w7_sums : W7 (F := Ideal) m ρ c (Proc.devRef .tc main_v67) = stage (h1 m c) (row m c) (col m c) (ew m c) := by
  refine (mid1_sums (W6 (F := Ideal) m ρ c)).trans ?_
  rw [w6_out, w6_row, w6_col, w6_ew]
theorem w7_matrix : W7 (F := Ideal) m ρ c (Proc.devRef .tc main_v68) = truncf (F := Ideal) .bf16 (aW2 m c) bitsLt_bf16_f32 := by
  refine (mid1_matrix (W6 (F := Ideal) m ρ c)).trans ?_
  rw [w6_arg5]
theorem w7_bias : W7 (F := Ideal) m ρ c (Proc.devRef .tc main_v69) = shapeCast S1x64 (aB2 m c) shapeCasts_S64_S1x64 := by
  refine (mid1_bias (W6 (F := Ideal) m ρ c)).trans ?_
  rw [w6_arg6]
theorem w7_table : W7 (F := Ideal) m ρ c (Proc.devRef .tc main_v38) = invbOf (col m c) := (mid1_keep_v38 _).trans (w6_table m ρ c)
theorem w7_row : W7 (F := Ideal) m ρ c (Proc.devRef .tc main_v1) = row m c := (mid1_keep_v1 _).trans (w6_row m ρ c)
theorem w7_col : W7 (F := Ideal) m ρ c (Proc.devRef .tc main_v3) = col m c := (mid1_keep_v3 _).trans (w6_col m ρ c)
theorem w7_ew : W7 (F := Ideal) m ρ c (Proc.devRef .tc main_v29) = ew m c := (mid1_keep_v29 _).trans (w6_ew m ρ c)
theorem w7_arg7 : W7 (F := Ideal) m ρ c (Proc.devRef .tc main_arg7) = aW3 m c := (mid1_keep_arg7 _).trans (w6_arg7 m ρ c)
theorem w7_arg8 : W7 (F := Ideal) m ρ c (Proc.devRef .tc main_arg8) = aB3 m c := (mid1_keep_arg8 _).trans (w6_arg8 m ρ c)

/-! ## After the second dense block -/

theorem w8_out : W8 (F := Ideal) m ρ c (Proc.devRef .tc main_v70) = h2 m c := by
  refine (W8_arr (F := Ideal) m ρ c 4).trans ?_
  rw [region1_out]
  show regionFn true (W7 (F := Ideal) m ρ c (Proc.devRef .tc main_v67)) (W7 (F := Ideal) m ρ c (Proc.devRef .tc main_v38))
    (W7 (F := Ideal) m ρ c (Proc.devRef .tc main_v68)) (W7 (F := Ideal) m ρ c (Proc.devRef .tc main_v69)) = _
  rw [w7_sums, w7_table, w7_matrix, w7_bias]
  exact regionFn_eq true _ _ _ _ _ _

theorem w8_table : W8 (F := Ideal) m ρ c (Proc.devRef .tc main_v38) = invbOf (col m c) := by
  refine (W8_arr (F := Ideal) m ρ c 1).trans ?_
  rw [region1_in (V7 (F := Ideal) m ρ) c 1 (by decide)]
  exact w7_table m ρ c

theorem w8_row : W8 (F := Ideal) m ρ c (Proc.devRef .tc main_v1) = row m c := (W8_of_ne (F := Ideal) m ρ c main_v1 (by decide)).trans (w7_row m ρ c)
theorem w8_col : W8 (F := Ideal) m ρ c (Proc.devRef .tc main_v3) = col m c := (W8_of_ne (F := Ideal) m ρ c main_v3 (by decide)).trans (w7_col m ρ c)
theorem w8_ew : W8 (F := Ideal) m ρ c (Proc.devRef .tc main_v29) = ew m c := (W8_of_ne (F := Ideal) m ρ c main_v29 (by decide)).trans (w7_ew m ρ c)
theorem w8_arg7 : W8 (F := Ideal) m ρ c (Proc.devRef .tc main_arg7) = aW3 m c := (W8_of_ne (F := Ideal) m ρ c main_arg7 (by decide)).trans (w7_arg7 m ρ c)
theorem w8_arg8 : W8 (F := Ideal) m ρ c (Proc.devRef .tc main_arg8) = aB3 m c := (W8_of_ne (F := Ideal) m ρ c main_arg8 (by decide)).trans (w7_arg8 m ρ c)

/-! ## At the third dense block's entry, and after it -/

theorem w9_sums : W9 (F := Ideal) m ρ c (Proc.devRef .tc main_v83) = stage (h2 m c) (row m c) (col m c) (ew m c) := by
  refine (mid2_sums (W8 (F := Ideal) m ρ c)).trans ?_
  rw [w8_out, w8_row, w8_col, w8_ew]
theorem w9_matrix : W9 (F := Ideal) m ρ c (Proc.devRef .tc main_v84) = truncf (F := Ideal) .bf16 (aW3 m c) bitsLt_bf16_f32 := by
  refine (mid2_matrix (W8 (F := Ideal) m ρ c)).trans ?_
  rw [w8_arg7]
theorem w9_bias : W9 (F := Ideal) m ρ c (Proc.devRef .tc main_v85) = shapeCast S1x64 (aB3 m c) shapeCasts_S64_S1x64 := by
  refine (mid2_bias (W8 (F := Ideal) m ρ c)).trans ?_
  rw [w8_arg8]
theorem w9_table : W9 (F := Ideal) m ρ c (Proc.devRef .tc main_v38) = invbOf (col m c) := (mid2_keep_v38 _).trans (w8_table m ρ c)

/-- The result buffer at the return holds the three layers of the arguments. -/
theorem result_eq : W10 (F := Ideal) m ρ c (Proc.devRef .tc main_v86)
    = net (aX m c) (aEi m c) (aW m c) (aW1 m c) (aB1 m c) (aW2 m c) (aB2 m c) (aW3 m c) (aB3 m c) := by
  refine (W10_arr (F := Ideal) m ρ c 4).trans ?_
  rw [region2_out]
  show regionFn false (W9 (F := Ideal) m ρ c (Proc.devRef .tc main_v83)) (W9 (F := Ideal) m ρ c (Proc.devRef .tc main_v38))
    (W9 (F := Ideal) m ρ c (Proc.devRef .tc main_v84)) (W9 (F := Ideal) m ρ c (Proc.devRef .tc main_v85)) = _
  rw [w9_sums, w9_table, w9_matrix, w9_bias]
  exact regionFn_eq false _ _ _ _ _ _

end Cert.KernelIdeal.KernValue

end
-- ==== Proof.RefCasts.lean ====
/-
  Typed references of the reference program's outlined functions: the transport of contents along the equation "this buffer's type is
  the value's type" changes nothing. For each buffer an outlined function reads or writes, the contents written through the
  typed reference are the contents given, and the contents read through it are the buffer's: both sides have the same type up
  to unfolding the buffer's declared type, and are equal by the general heterogeneous statement.
-/
import proofs.«176437_j81698867905110_1_alg».proof.Proof.RefOps
import proofs.«176437_j81698867905110_1_alg».proof.Proof.LibTypedRef
import Idealize.ShloMosaic.PureOps.Ideal

noncomputable section

namespace Cert.ReferenceIdeal.RefCasts

open Cert.ReferenceIdeal Cert.ReferenceIdeal.Gen Idealize.ShloMosaic Idealize.ShloMosaic.TcCoe Idealize.ShloMosaic.StableHlo Cert.Lib.TypedRef

theorem toBuf_main_cst_3 (p1 p2 p3) (v : (⟨S_, .f32⟩ : BufTy).Contents (Elt Ideal)) :
    (TRef.of (sig := sig) (T := ⟨S_, .f32⟩) main_cst_3 p1 p2 p3).toBuf v = v :=
  eq_of_heq (toBuf_heq (TRef.of (sig := sig) (T := ⟨S_, .f32⟩) main_cst_3 p1 p2 p3) v)
theorem ofBuf_main_cst_3 (p1 p2 p3) (v : (⟨S_, .f32⟩ : BufTy).Contents (Elt Ideal)) :
    (TRef.of (sig := sig) (T := ⟨S_, .f32⟩) main_cst_3 p1 p2 p3).ofBuf v = v :=
  eq_of_heq (ofBuf_heq (TRef.of (sig := sig) (T := ⟨S_, .f32⟩) main_cst_3 p1 p2 p3) v)
theorem toBuf_main_call0_v0 (p1 p2 p3) (v : (⟨S_, .f32⟩ : BufTy).Contents (Elt Ideal)) :
    (TRef.of (sig := sig) (T := ⟨S_, .f32⟩) main_call0_v0 p1 p2 p3).toBuf v = v :=
  eq_of_heq (toBuf_heq (TRef.of (sig := sig) (T := ⟨S_, .f32⟩) main_call0_v0 p1 p2 p3) v)
theorem ofBuf_main_call0_v0 (p1 p2 p3) (v : (⟨S_, .f32⟩ : BufTy).Contents (Elt Ideal)) :
    (TRef.of (sig := sig) (T := ⟨S_, .f32⟩) main_call0_v0 p1 p2 p3).ofBuf v = v :=
  eq_of_heq (ofBuf_heq (TRef.of (sig := sig) (T := ⟨S_, .f32⟩) main_call0_v0 p1 p2 p3) v)
theorem toBuf_main_call0_v1 (p1 p2 p3) (v : (⟨S50000, .f32⟩ : BufTy).Contents (Elt Ideal)) :
    (TRef.of (sig := sig) (T := ⟨S50000, .f32⟩) main_call0_v1 p1 p2 p3).toBuf v = v :=
  eq_of_heq (toBuf_heq (TRef.of (sig := sig) (T := ⟨S50000, .f32⟩) main_call0_v1 p1 p2 p3) v)
theorem ofBuf_main_call0_v1 (p1 p2 p3) (v : (⟨S50000, .f32⟩ : BufTy).Contents (Elt Ideal)) :
    (TRef.of (sig := sig) (T := ⟨S50000, .f32⟩) main_call0_v1 p1 p2 p3).ofBuf v = v :=
  eq_of_heq (ofBuf_heq (TRef.of (sig := sig) (T := ⟨S50000, .f32⟩) main_call0_v1 p1 p2 p3) v)
theorem toBuf_main_v9 (p1 p2 p3) (v : (⟨S50000, .i1⟩ : BufTy).Contents (Elt Ideal)) :
    (TRef.of (sig := sig) (T := ⟨S50000, .i1⟩) main_v9 p1 p2 p3).toBuf v = v :=
  eq_of_heq (toBuf_heq (TRef.of (sig := sig) (T := ⟨S50000, .i1⟩) main_v9 p1 p2 p3) v)
theorem ofBuf_main_v9 (p1 p2 p3) (v : (⟨S50000, .i1⟩ : BufTy).Contents (Elt Ideal)) :
    (TRef.of (sig := sig) (T := ⟨S50000, .i1⟩) main_v9 p1 p2 p3).ofBuf v = v :=
  eq_of_heq (ofBuf_heq (TRef.of (sig := sig) (T := ⟨S50000, .i1⟩) main_v9 p1 p2 p3) v)
theorem toBuf_main_v12 (p1 p2 p3) (v : (⟨S50000, .f32⟩ : BufTy).Contents (Elt Ideal)) :
    (TRef.of (sig := sig) (T := ⟨S50000, .f32⟩) main_v12 p1 p2 p3).toBuf v = v :=
  eq_of_heq (toBuf_heq (TRef.of (sig := sig) (T := ⟨S50000, .f32⟩) main_v12 p1 p2 p3) v)
theorem ofBuf_main_v12 (p1 p2 p3) (v : (⟨S50000, .f32⟩ : BufTy).Contents (Elt Ideal)) :
    (TRef.of (sig := sig) (T := ⟨S50000, .f32⟩) main_v12 p1 p2 p3).ofBuf v = v :=
  eq_of_heq (ofBuf_heq (TRef.of (sig := sig) (T := ⟨S50000, .f32⟩) main_v12 p1 p2 p3) v)
theorem toBuf_main_v13 (p1 p2 p3) (v : (⟨S50000, .f32⟩ : BufTy).Contents (Elt Ideal)) :
    (TRef.of (sig := sig) (T := ⟨S50000, .f32⟩) main_v13 p1 p2 p3).toBuf v = v :=
  eq_of_heq (toBuf_heq (TRef.of (sig := sig) (T := ⟨S50000, .f32⟩) main_v13 p1 p2 p3) v)
theorem ofBuf_main_v13 (p1 p2 p3) (v : (⟨S50000, .f32⟩ : BufTy).Contents (Elt Ideal)) :
    (TRef.of (sig := sig) (T := ⟨S50000, .f32⟩) main_v13 p1 p2 p3).ofBuf v = v :=
  eq_of_heq (ofBuf_heq (TRef.of (sig := sig) (T := ⟨S50000, .f32⟩) main_v13 p1 p2 p3) v)
theorem toBuf_main_cst_14 (p1 p2 p3) (v : (⟨S_, .f32⟩ : BufTy).Contents (Elt Ideal)) :
    (TRef.of (sig := sig) (T := ⟨S_, .f32⟩) main_cst_14 p1 p2 p3).toBuf v = v :=
  eq_of_heq (toBuf_heq (TRef.of (sig := sig) (T := ⟨S_, .f32⟩) main_cst_14 p1 p2 p3) v)
theorem ofBuf_main_cst_14 (p1 p2 p3) (v : (⟨S_, .f32⟩ : BufTy).Contents (Elt Ideal)) :
    (TRef.of (sig := sig) (T := ⟨S_, .f32⟩) main_cst_14 p1 p2 p3).ofBuf v = v :=
  eq_of_heq (ofBuf_heq (TRef.of (sig := sig) (T := ⟨S_, .f32⟩) main_cst_14 p1 p2 p3) v)
theorem toBuf_main_call1_v0 (p1 p2 p3) (v : (⟨S_, .f32⟩ : BufTy).Contents (Elt Ideal)) :
    (TRef.of (sig := sig) (T := ⟨S_, .f32⟩) main_call1_v0 p1 p2 p3).toBuf v = v :=
  eq_of_heq (toBuf_heq (TRef.of (sig := sig) (T := ⟨S_, .f32⟩) main_call1_v0 p1 p2 p3) v)
theorem ofBuf_main_call1_v0 (p1 p2 p3) (v : (⟨S_, .f32⟩ : BufTy).Contents (Elt Ideal)) :
    (TRef.of (sig := sig) (T := ⟨S_, .f32⟩) main_call1_v0 p1 p2 p3).ofBuf v = v :=
  eq_of_heq (ofBuf_heq (TRef.of (sig := sig) (T := ⟨S_, .f32⟩) main_call1_v0 p1 p2 p3) v)
theorem toBuf_main_v49 (p1 p2 p3) (v : (⟨S50000x1, .i1⟩ : BufTy).Contents (Elt Ideal)) :
    (TRef.of (sig := sig) (T := ⟨S50000x1, .i1⟩) main_v49 p1 p2 p3).toBuf v = v :=
  eq_of_heq (toBuf_heq (TRef.of (sig := sig) (T := ⟨S50000x1, .i1⟩) main_v49 p1 p2 p3) v)
theorem ofBuf_main_v49 (p1 p2 p3) (v : (⟨S50000x1, .i1⟩ : BufTy).Contents (Elt Ideal)) :
    (TRef.of (sig := sig) (T := ⟨S50000x1, .i1⟩) main_v49 p1 p2 p3).ofBuf v = v :=
  eq_of_heq (ofBuf_heq (TRef.of (sig := sig) (T := ⟨S50000x1, .i1⟩) main_v49 p1 p2 p3) v)
theorem toBuf_main_call1_v1 (p1 p2 p3) (v : (⟨S50000x64, .i1⟩ : BufTy).Contents (Elt Ideal)) :
    (TRef.of (sig := sig) (T := ⟨S50000x64, .i1⟩) main_call1_v1 p1 p2 p3).toBuf v = v :=
  eq_of_heq (toBuf_heq (TRef.of (sig := sig) (T := ⟨S50000x64, .i1⟩) main_call1_v1 p1 p2 p3) v)
theorem ofBuf_main_call1_v1 (p1 p2 p3) (v : (⟨S50000x64, .i1⟩ : BufTy).Contents (Elt Ideal)) :
    (TRef.of (sig := sig) (T := ⟨S50000x64, .i1⟩) main_call1_v1 p1 p2 p3).ofBuf v = v :=
  eq_of_heq (ofBuf_heq (TRef.of (sig := sig) (T := ⟨S50000x64, .i1⟩) main_call1_v1 p1 p2 p3) v)
theorem toBuf_main_call1_v2 (p1 p2 p3) (v : (⟨S50000x64, .f32⟩ : BufTy).Contents (Elt Ideal)) :
    (TRef.of (sig := sig) (T := ⟨S50000x64, .f32⟩) main_call1_v2 p1 p2 p3).toBuf v = v :=
  eq_of_heq (toBuf_heq (TRef.of (sig := sig) (T := ⟨S50000x64, .f32⟩) main_call1_v2 p1 p2 p3) v)
theorem ofBuf_main_call1_v2 (p1 p2 p3) (v : (⟨S50000x64, .f32⟩ : BufTy).Contents (Elt Ideal)) :
    (TRef.of (sig := sig) (T := ⟨S50000x64, .f32⟩) main_call1_v2 p1 p2 p3).ofBuf v = v :=
  eq_of_heq (ofBuf_heq (TRef.of (sig := sig) (T := ⟨S50000x64, .f32⟩) main_call1_v2 p1 p2 p3) v)
theorem toBuf_main_v54 (p1 p2 p3) (v : (⟨S50000x64, .f32⟩ : BufTy).Contents (Elt Ideal)) :
    (TRef.of (sig := sig) (T := ⟨S50000x64, .f32⟩) main_v54 p1 p2 p3).toBuf v = v :=
  eq_of_heq (toBuf_heq (TRef.of (sig := sig) (T := ⟨S50000x64, .f32⟩) main_v54 p1 p2 p3) v)
theorem ofBuf_main_v54 (p1 p2 p3) (v : (⟨S50000x64, .f32⟩ : BufTy).Contents (Elt Ideal)) :
    (TRef.of (sig := sig) (T := ⟨S50000x64, .f32⟩) main_v54 p1 p2 p3).ofBuf v = v :=
  eq_of_heq (ofBuf_heq (TRef.of (sig := sig) (T := ⟨S50000x64, .f32⟩) main_v54 p1 p2 p3) v)
theorem toBuf_main_v55 (p1 p2 p3) (v : (⟨S50000x64, .f32⟩ : BufTy).Contents (Elt Ideal)) :
    (TRef.of (sig := sig) (T := ⟨S50000x64, .f32⟩) main_v55 p1 p2 p3).toBuf v = v :=
  eq_of_heq (toBuf_heq (TRef.of (sig := sig) (T := ⟨S50000x64, .f32⟩) main_v55 p1 p2 p3) v)
theorem ofBuf_main_v55 (p1 p2 p3) (v : (⟨S50000x64, .f32⟩ : BufTy).Contents (Elt Ideal)) :
    (TRef.of (sig := sig) (T := ⟨S50000x64, .f32⟩) main_v55 p1 p2 p3).ofBuf v = v :=
  eq_of_heq (ofBuf_heq (TRef.of (sig := sig) (T := ⟨S50000x64, .f32⟩) main_v55 p1 p2 p3) v)
theorem toBuf_main_call2_cst (p1 p2 p3) (v : (⟨S_, .f32⟩ : BufTy).Contents (Elt Ideal)) :
    (TRef.of (sig := sig) (T := ⟨S_, .f32⟩) main_call2_cst p1 p2 p3).toBuf v = v :=
  eq_of_heq (toBuf_heq (TRef.of (sig := sig) (T := ⟨S_, .f32⟩) main_call2_cst p1 p2 p3) v)
theorem ofBuf_main_call2_cst (p1 p2 p3) (v : (⟨S_, .f32⟩ : BufTy).Contents (Elt Ideal)) :
    (TRef.of (sig := sig) (T := ⟨S_, .f32⟩) main_call2_cst p1 p2 p3).ofBuf v = v :=
  eq_of_heq (ofBuf_heq (TRef.of (sig := sig) (T := ⟨S_, .f32⟩) main_call2_cst p1 p2 p3) v)
theorem toBuf_main_call2_v0 (p1 p2 p3) (v : (⟨S50000x64, .f32⟩ : BufTy).Contents (Elt Ideal)) :
    (TRef.of (sig := sig) (T := ⟨S50000x64, .f32⟩) main_call2_v0 p1 p2 p3).toBuf v = v :=
  eq_of_heq (toBuf_heq (TRef.of (sig := sig) (T := ⟨S50000x64, .f32⟩) main_call2_v0 p1 p2 p3) v)
theorem ofBuf_main_call2_v0 (p1 p2 p3) (v : (⟨S50000x64, .f32⟩ : BufTy).Contents (Elt Ideal)) :
    (TRef.of (sig := sig) (T := ⟨S50000x64, .f32⟩) main_call2_v0 p1 p2 p3).ofBuf v = v :=
  eq_of_heq (ofBuf_heq (TRef.of (sig := sig) (T := ⟨S50000x64, .f32⟩) main_call2_v0 p1 p2 p3) v)
theorem toBuf_main_v59 (p1 p2 p3) (v : (⟨S50000x64, .f32⟩ : BufTy).Contents (Elt Ideal)) :
    (TRef.of (sig := sig) (T := ⟨S50000x64, .f32⟩) main_v59 p1 p2 p3).toBuf v = v :=
  eq_of_heq (toBuf_heq (TRef.of (sig := sig) (T := ⟨S50000x64, .f32⟩) main_v59 p1 p2 p3) v)
theorem ofBuf_main_v59 (p1 p2 p3) (v : (⟨S50000x64, .f32⟩ : BufTy).Contents (Elt Ideal)) :
    (TRef.of (sig := sig) (T := ⟨S50000x64, .f32⟩) main_v59 p1 p2 p3).ofBuf v = v :=
  eq_of_heq (ofBuf_heq (TRef.of (sig := sig) (T := ⟨S50000x64, .f32⟩) main_v59 p1 p2 p3) v)
theorem toBuf_main_v60 (p1 p2 p3) (v : (⟨S50000x64, .f32⟩ : BufTy).Contents (Elt Ideal)) :
    (TRef.of (sig := sig) (T := ⟨S50000x64, .f32⟩) main_v60 p1 p2 p3).toBuf v = v :=
  eq_of_heq (toBuf_heq (TRef.of (sig := sig) (T := ⟨S50000x64, .f32⟩) main_v60 p1 p2 p3) v)
theorem ofBuf_main_v60 (p1 p2 p3) (v : (⟨S50000x64, .f32⟩ : BufTy).Contents (Elt Ideal)) :
    (TRef.of (sig := sig) (T := ⟨S50000x64, .f32⟩) main_v60 p1 p2 p3).ofBuf v = v :=
  eq_of_heq (ofBuf_heq (TRef.of (sig := sig) (T := ⟨S50000x64, .f32⟩) main_v60 p1 p2 p3) v)
theorem toBuf_main_cst_22 (p1 p2 p3) (v : (⟨S_, .f32⟩ : BufTy).Contents (Elt Ideal)) :
    (TRef.of (sig := sig) (T := ⟨S_, .f32⟩) main_cst_22 p1 p2 p3).toBuf v = v :=
  eq_of_heq (toBuf_heq (TRef.of (sig := sig) (T := ⟨S_, .f32⟩) main_cst_22 p1 p2 p3) v)
theorem ofBuf_main_cst_22 (p1 p2 p3) (v : (⟨S_, .f32⟩ : BufTy).Contents (Elt Ideal)) :
    (TRef.of (sig := sig) (T := ⟨S_, .f32⟩) main_cst_22 p1 p2 p3).ofBuf v = v :=
  eq_of_heq (ofBuf_heq (TRef.of (sig := sig) (T := ⟨S_, .f32⟩) main_cst_22 p1 p2 p3) v)
theorem toBuf_main_call3_v0 (p1 p2 p3) (v : (⟨S_, .f32⟩ : BufTy).Contents (Elt Ideal)) :
    (TRef.of (sig := sig) (T := ⟨S_, .f32⟩) main_call3_v0 p1 p2 p3).toBuf v = v :=
  eq_of_heq (toBuf_heq (TRef.of (sig := sig) (T := ⟨S_, .f32⟩) main_call3_v0 p1 p2 p3) v)
theorem ofBuf_main_call3_v0 (p1 p2 p3) (v : (⟨S_, .f32⟩ : BufTy).Contents (Elt Ideal)) :
    (TRef.of (sig := sig) (T := ⟨S_, .f32⟩) main_call3_v0 p1 p2 p3).ofBuf v = v :=
  eq_of_heq (ofBuf_heq (TRef.of (sig := sig) (T := ⟨S_, .f32⟩) main_call3_v0 p1 p2 p3) v)
theorem toBuf_main_v80 (p1 p2 p3) (v : (⟨S50000x1, .i1⟩ : BufTy).Contents (Elt Ideal)) :
    (TRef.of (sig := sig) (T := ⟨S50000x1, .i1⟩) main_v80 p1 p2 p3).toBuf v = v :=
  eq_of_heq (toBuf_heq (TRef.of (sig := sig) (T := ⟨S50000x1, .i1⟩) main_v80 p1 p2 p3) v)
theorem ofBuf_main_v80 (p1 p2 p3) (v : (⟨S50000x1, .i1⟩ : BufTy).Contents (Elt Ideal)) :
    (TRef.of (sig := sig) (T := ⟨S50000x1, .i1⟩) main_v80 p1 p2 p3).ofBuf v = v :=
  eq_of_heq (ofBuf_heq (TRef.of (sig := sig) (T := ⟨S50000x1, .i1⟩) main_v80 p1 p2 p3) v)
theorem toBuf_main_call3_v1 (p1 p2 p3) (v : (⟨S50000x64, .i1⟩ : BufTy).Contents (Elt Ideal)) :
    (TRef.of (sig := sig) (T := ⟨S50000x64, .i1⟩) main_call3_v1 p1 p2 p3).toBuf v = v :=
  eq_of_heq (toBuf_heq (TRef.of (sig := sig) (T := ⟨S50000x64, .i1⟩) main_call3_v1 p1 p2 p3) v)
theorem ofBuf_main_call3_v1 (p1 p2 p3) (v : (⟨S50000x64, .i1⟩ : BufTy).Contents (Elt Ideal)) :
    (TRef.of (sig := sig) (T := ⟨S50000x64, .i1⟩) main_call3_v1 p1 p2 p3).ofBuf v = v :=
  eq_of_heq (ofBuf_heq (TRef.of (sig := sig) (T := ⟨S50000x64, .i1⟩) main_call3_v1 p1 p2 p3) v)
theorem toBuf_main_call3_v2 (p1 p2 p3) (v : (⟨S50000x64, .f32⟩ : BufTy).Contents (Elt Ideal)) :
    (TRef.of (sig := sig) (T := ⟨S50000x64, .f32⟩) main_call3_v2 p1 p2 p3).toBuf v = v :=
  eq_of_heq (toBuf_heq (TRef.of (sig := sig) (T := ⟨S50000x64, .f32⟩) main_call3_v2 p1 p2 p3) v)
theorem ofBuf_main_call3_v2 (p1 p2 p3) (v : (⟨S50000x64, .f32⟩ : BufTy).Contents (Elt Ideal)) :
    (TRef.of (sig := sig) (T := ⟨S50000x64, .f32⟩) main_call3_v2 p1 p2 p3).ofBuf v = v :=
  eq_of_heq (ofBuf_heq (TRef.of (sig := sig) (T := ⟨S50000x64, .f32⟩) main_call3_v2 p1 p2 p3) v)
theorem toBuf_main_v85 (p1 p2 p3) (v : (⟨S50000x64, .f32⟩ : BufTy).Contents (Elt Ideal)) :
    (TRef.of (sig := sig) (T := ⟨S50000x64, .f32⟩) main_v85 p1 p2 p3).toBuf v = v :=
  eq_of_heq (toBuf_heq (TRef.of (sig := sig) (T := ⟨S50000x64, .f32⟩) main_v85 p1 p2 p3) v)
theorem ofBuf_main_v85 (p1 p2 p3) (v : (⟨S50000x64, .f32⟩ : BufTy).Contents (Elt Ideal)) :
    (TRef.of (sig := sig) (T := ⟨S50000x64, .f32⟩) main_v85 p1 p2 p3).ofBuf v = v :=
  eq_of_heq (ofBuf_heq (TRef.of (sig := sig) (T := ⟨S50000x64, .f32⟩) main_v85 p1 p2 p3) v)
theorem toBuf_main_v86 (p1 p2 p3) (v : (⟨S50000x64, .f32⟩ : BufTy).Contents (Elt Ideal)) :
    (TRef.of (sig := sig) (T := ⟨S50000x64, .f32⟩) main_v86 p1 p2 p3).toBuf v = v :=
  eq_of_heq (toBuf_heq (TRef.of (sig := sig) (T := ⟨S50000x64, .f32⟩) main_v86 p1 p2 p3) v)
theorem ofBuf_main_v86 (p1 p2 p3) (v : (⟨S50000x64, .f32⟩ : BufTy).Contents (Elt Ideal)) :
    (TRef.of (sig := sig) (T := ⟨S50000x64, .f32⟩) main_v86 p1 p2 p3).ofBuf v = v :=
  eq_of_heq (ofBuf_heq (TRef.of (sig := sig) (T := ⟨S50000x64, .f32⟩) main_v86 p1 p2 p3) v)
theorem toBuf_main_call4_cst (p1 p2 p3) (v : (⟨S_, .f32⟩ : BufTy).Contents (Elt Ideal)) :
    (TRef.of (sig := sig) (T := ⟨S_, .f32⟩) main_call4_cst p1 p2 p3).toBuf v = v :=
  eq_of_heq (toBuf_heq (TRef.of (sig := sig) (T := ⟨S_, .f32⟩) main_call4_cst p1 p2 p3) v)
theorem ofBuf_main_call4_cst (p1 p2 p3) (v : (⟨S_, .f32⟩ : BufTy).Contents (Elt Ideal)) :
    (TRef.of (sig := sig) (T := ⟨S_, .f32⟩) main_call4_cst p1 p2 p3).ofBuf v = v :=
  eq_of_heq (ofBuf_heq (TRef.of (sig := sig) (T := ⟨S_, .f32⟩) main_call4_cst p1 p2 p3) v)
theorem toBuf_main_call4_v0 (p1 p2 p3) (v : (⟨S50000x64, .f32⟩ : BufTy).Contents (Elt Ideal)) :
    (TRef.of (sig := sig) (T := ⟨S50000x64, .f32⟩) main_call4_v0 p1 p2 p3).toBuf v = v :=
  eq_of_heq (toBuf_heq (TRef.of (sig := sig) (T := ⟨S50000x64, .f32⟩) main_call4_v0 p1 p2 p3) v)
theorem ofBuf_main_call4_v0 (p1 p2 p3) (v : (⟨S50000x64, .f32⟩ : BufTy).Contents (Elt Ideal)) :
    (TRef.of (sig := sig) (T := ⟨S50000x64, .f32⟩) main_call4_v0 p1 p2 p3).ofBuf v = v :=
  eq_of_heq (ofBuf_heq (TRef.of (sig := sig) (T := ⟨S50000x64, .f32⟩) main_call4_v0 p1 p2 p3) v)
theorem toBuf_main_v90 (p1 p2 p3) (v : (⟨S50000x64, .f32⟩ : BufTy).Contents (Elt Ideal)) :
    (TRef.of (sig := sig) (T := ⟨S50000x64, .f32⟩) main_v90 p1 p2 p3).toBuf v = v :=
  eq_of_heq (toBuf_heq (TRef.of (sig := sig) (T := ⟨S50000x64, .f32⟩) main_v90 p1 p2 p3) v)
theorem ofBuf_main_v90 (p1 p2 p3) (v : (⟨S50000x64, .f32⟩ : BufTy).Contents (Elt Ideal)) :
    (TRef.of (sig := sig) (T := ⟨S50000x64, .f32⟩) main_v90 p1 p2 p3).ofBuf v = v :=
  eq_of_heq (ofBuf_heq (TRef.of (sig := sig) (T := ⟨S50000x64, .f32⟩) main_v90 p1 p2 p3) v)
theorem toBuf_main_v91 (p1 p2 p3) (v : (⟨S50000x64, .f32⟩ : BufTy).Contents (Elt Ideal)) :
    (TRef.of (sig := sig) (T := ⟨S50000x64, .f32⟩) main_v91 p1 p2 p3).toBuf v = v :=
  eq_of_heq (toBuf_heq (TRef.of (sig := sig) (T := ⟨S50000x64, .f32⟩) main_v91 p1 p2 p3) v)
theorem ofBuf_main_v91 (p1 p2 p3) (v : (⟨S50000x64, .f32⟩ : BufTy).Contents (Elt Ideal)) :
    (TRef.of (sig := sig) (T := ⟨S50000x64, .f32⟩) main_v91 p1 p2 p3).ofBuf v = v :=
  eq_of_heq (ofBuf_heq (TRef.of (sig := sig) (T := ⟨S50000x64, .f32⟩) main_v91 p1 p2 p3) v)
theorem toBuf_main_cst_30 (p1 p2 p3) (v : (⟨S_, .f32⟩ : BufTy).Contents (Elt Ideal)) :
    (TRef.of (sig := sig) (T := ⟨S_, .f32⟩) main_cst_30 p1 p2 p3).toBuf v = v :=
  eq_of_heq (toBuf_heq (TRef.of (sig := sig) (T := ⟨S_, .f32⟩) main_cst_30 p1 p2 p3) v)
theorem ofBuf_main_cst_30 (p1 p2 p3) (v : (⟨S_, .f32⟩ : BufTy).Contents (Elt Ideal)) :
    (TRef.of (sig := sig) (T := ⟨S_, .f32⟩) main_cst_30 p1 p2 p3).ofBuf v = v :=
  eq_of_heq (ofBuf_heq (TRef.of (sig := sig) (T := ⟨S_, .f32⟩) main_cst_30 p1 p2 p3) v)
theorem toBuf_main_call5_v0 (p1 p2 p3) (v : (⟨S_, .f32⟩ : BufTy).Contents (Elt Ideal)) :
    (TRef.of (sig := sig) (T := ⟨S_, .f32⟩) main_call5_v0 p1 p2 p3).toBuf v = v :=
  eq_of_heq (toBuf_heq (TRef.of (sig := sig) (T := ⟨S_, .f32⟩) main_call5_v0 p1 p2 p3) v)
theorem ofBuf_main_call5_v0 (p1 p2 p3) (v : (⟨S_, .f32⟩ : BufTy).Contents (Elt Ideal)) :
    (TRef.of (sig := sig) (T := ⟨S_, .f32⟩) main_call5_v0 p1 p2 p3).ofBuf v = v :=
  eq_of_heq (ofBuf_heq (TRef.of (sig := sig) (T := ⟨S_, .f32⟩) main_call5_v0 p1 p2 p3) v)
theorem toBuf_main_v111 (p1 p2 p3) (v : (⟨S50000x1, .i1⟩ : BufTy).Contents (Elt Ideal)) :
    (TRef.of (sig := sig) (T := ⟨S50000x1, .i1⟩) main_v111 p1 p2 p3).toBuf v = v :=
  eq_of_heq (toBuf_heq (TRef.of (sig := sig) (T := ⟨S50000x1, .i1⟩) main_v111 p1 p2 p3) v)
theorem ofBuf_main_v111 (p1 p2 p3) (v : (⟨S50000x1, .i1⟩ : BufTy).Contents (Elt Ideal)) :
    (TRef.of (sig := sig) (T := ⟨S50000x1, .i1⟩) main_v111 p1 p2 p3).ofBuf v = v :=
  eq_of_heq (ofBuf_heq (TRef.of (sig := sig) (T := ⟨S50000x1, .i1⟩) main_v111 p1 p2 p3) v)
theorem toBuf_main_call5_v1 (p1 p2 p3) (v : (⟨S50000x64, .i1⟩ : BufTy).Contents (Elt Ideal)) :
    (TRef.of (sig := sig) (T := ⟨S50000x64, .i1⟩) main_call5_v1 p1 p2 p3).toBuf v = v :=
  eq_of_heq (toBuf_heq (TRef.of (sig := sig) (T := ⟨S50000x64, .i1⟩) main_call5_v1 p1 p2 p3) v)
theorem ofBuf_main_call5_v1 (p1 p2 p3) (v : (⟨S50000x64, .i1⟩ : BufTy).Contents (Elt Ideal)) :
    (TRef.of (sig := sig) (T := ⟨S50000x64, .i1⟩) main_call5_v1 p1 p2 p3).ofBuf v = v :=
  eq_of_heq (ofBuf_heq (TRef.of (sig := sig) (T := ⟨S50000x64, .i1⟩) main_call5_v1 p1 p2 p3) v)
theorem toBuf_main_call5_v2 (p1 p2 p3) (v : (⟨S50000x64, .f32⟩ : BufTy).Contents (Elt Ideal)) :
    (TRef.of (sig := sig) (T := ⟨S50000x64, .f32⟩) main_call5_v2 p1 p2 p3).toBuf v = v :=
  eq_of_heq (toBuf_heq (TRef.of (sig := sig) (T := ⟨S50000x64, .f32⟩) main_call5_v2 p1 p2 p3) v)
theorem ofBuf_main_call5_v2 (p1 p2 p3) (v : (⟨S50000x64, .f32⟩ : BufTy).Contents (Elt Ideal)) :
    (TRef.of (sig := sig) (T := ⟨S50000x64, .f32⟩) main_call5_v2 p1 p2 p3).ofBuf v = v :=
  eq_of_heq (ofBuf_heq (TRef.of (sig := sig) (T := ⟨S50000x64, .f32⟩) main_call5_v2 p1 p2 p3) v)
theorem toBuf_main_v116 (p1 p2 p3) (v : (⟨S50000x64, .f32⟩ : BufTy).Contents (Elt Ideal)) :
    (TRef.of (sig := sig) (T := ⟨S50000x64, .f32⟩) main_v116 p1 p2 p3).toBuf v = v :=
  eq_of_heq (toBuf_heq (TRef.of (sig := sig) (T := ⟨S50000x64, .f32⟩) main_v116 p1 p2 p3) v)
theorem ofBuf_main_v116 (p1 p2 p3) (v : (⟨S50000x64, .f32⟩ : BufTy).Contents (Elt Ideal)) :
    (TRef.of (sig := sig) (T := ⟨S50000x64, .f32⟩) main_v116 p1 p2 p3).ofBuf v = v :=
  eq_of_heq (ofBuf_heq (TRef.of (sig := sig) (T := ⟨S50000x64, .f32⟩) main_v116 p1 p2 p3) v)
theorem toBuf_main_v117 (p1 p2 p3) (v : (⟨S50000x64, .f32⟩ : BufTy).Contents (Elt Ideal)) :
    (TRef.of (sig := sig) (T := ⟨S50000x64, .f32⟩) main_v117 p1 p2 p3).toBuf v = v :=
  eq_of_heq (toBuf_heq (TRef.of (sig := sig) (T := ⟨S50000x64, .f32⟩) main_v117 p1 p2 p3) v)
theorem ofBuf_main_v117 (p1 p2 p3) (v : (⟨S50000x64, .f32⟩ : BufTy).Contents (Elt Ideal)) :
    (TRef.of (sig := sig) (T := ⟨S50000x64, .f32⟩) main_v117 p1 p2 p3).ofBuf v = v :=
  eq_of_heq (ofBuf_heq (TRef.of (sig := sig) (T := ⟨S50000x64, .f32⟩) main_v117 p1 p2 p3) v)

end Cert.ReferenceIdeal.RefCasts

end
-- ==== Proof.RefValue.lean ====
/-
  The reference program's result as the three layers of the specification.

  Its 170 host operations are cut into four consecutive pieces — the edge data (sources, destinations, edge weights), then
  one piece per layer — and each piece is evaluated from ARBITRARY incoming buffer contents: the edge piece leaves the
  sources, the destinations and the edge weights of the specification; a layer piece leaves, in its result buffer, the
  specification's layer of the propagation step of the features it found, and leaves the edge data and the later layers'
  parameters alone. Composing the four gives the result buffer after the whole program: layer three of layer two of layer one
  of the input features.
-/
import proofs.«176437_j81698867905110_1_alg».proof.Proof.RefOps
import proofs.«176437_j81698867905110_1_alg».proof.Proof.Spec
import proofs.«176437_j81698867905110_1_alg».proof.Proof.LibAfterAppend
import proofs.«176437_j81698867905110_1_alg».proof.Proof.RefCasts

noncomputable section

namespace Cert.ReferenceIdeal.RefValue

open Cert.ReferenceIdeal Cert.ReferenceIdeal.Gen Cert.ReferenceIdeal.RunP Cert.ReferenceIdeal.RefCasts Cert.Gcn Cert.Lib.TypedRef
open Idealize.ShloMosaic Idealize.ShloMosaic.TcCoe Idealize.SL.Sem Idealize.ShloMosaic.StableHlo

/-! ## The four pieces -/

/-- The edge data: operations 1 … 41. -/
abbrev opsE : List (HloOp τ sig (Elt Ideal)) := (ops (F := Ideal)).take 41
/-- The first layer: operations 42 … 85. -/
abbrev ops1 : List (HloOp τ sig (Elt Ideal)) := ((ops (F := Ideal)).drop 41).take 44
/-- The second layer: operations 86 … 129. -/
abbrev ops2 : List (HloOp τ sig (Elt Ideal)) := ((ops (F := Ideal)).drop 85).take 44
/-- The third layer: operations 130 … 170. -/
abbrev ops3 : List (HloOp τ sig (Elt Ideal)) := (ops (F := Ideal)).drop 129

/-- The program is the four pieces in order. -/
theorem ops_split : ops (F := Ideal) = opsE ++ (ops1 ++ (ops2 ++ ops3)) := by
  have e1 : (ops (F := Ideal)) = opsE ++ (ops (F := Ideal)).drop 41 := (List.take_append_drop 41 _).symm
  have e2 : (ops (F := Ideal)).drop 41 = ops1 ++ ((ops (F := Ideal)).drop 41).drop 44 := (List.take_append_drop 44 _).symm
  have e3 : ((ops (F := Ideal)).drop 41).drop 44 = (ops (F := Ideal)).drop 85 := by rw [List.drop_drop]
  have e4 : (ops (F := Ideal)).drop 85 = ops2 ++ ((ops (F := Ideal)).drop 85).drop 44 := (List.take_append_drop 44 _).symm
  have e5 : ((ops (F := Ideal)).drop 85).drop 44 = ops3 := by rw [List.drop_drop]
  calc ops (F := Ideal) = opsE ++ (ops (F := Ideal)).drop 41 := e1
    _ = opsE ++ (ops1 ++ (ops (F := Ideal)).drop 85) := by rw [e2, e3]
    _ = opsE ++ (ops1 ++ (ops2 ++ ops3)) := by rw [e4, e5]

variable (W : Valuation τ sig (Elt Ideal))

/-! ## The edge data, from any contents -/

theorem edge_row : after opsE W (Proc.devRef .tc main_v1) = rowOf (W (Proc.devRef .tc main_arg1)) := by
  simp only [opsE, ops, List.take_succ_cons, List.take_zero]
  after_results_simp
  rfl

theorem edge_col : after opsE W (Proc.devRef .tc main_v3) = colOf (W (Proc.devRef .tc main_arg1)) := by
  simp only [opsE, ops, List.take_succ_cons, List.take_zero]
  after_results_simp
  rfl

theorem edge_ew : after opsE W (Proc.devRef .tc main_v29)
    = ewOf (W (Proc.devRef .tc main_arg2)) (rowOf (W (Proc.devRef .tc main_arg1))) (colOf (W (Proc.devRef .tc main_arg1))) := by
  simp only [opsE, ops, List.take_succ_cons, List.take_zero]
  after_results_simp
  simp only [ofBuf_toBuf, toBuf_ofBuf, toBuf_main_cst_3, ofBuf_main_cst_3, toBuf_main_call0_v0, ofBuf_main_call0_v0, toBuf_main_call0_v1, ofBuf_main_call0_v1, toBuf_main_v9, ofBuf_main_v9, toBuf_main_v12, ofBuf_main_v12, toBuf_main_v13, ofBuf_main_v13, toBuf_main_cst_14, ofBuf_main_cst_14, toBuf_main_call1_v0, ofBuf_main_call1_v0, toBuf_main_v49, ofBuf_main_v49, toBuf_main_call1_v1, ofBuf_main_call1_v1, toBuf_main_call1_v2, ofBuf_main_call1_v2, toBuf_main_v54, ofBuf_main_v54, toBuf_main_v55, ofBuf_main_v55, toBuf_main_call2_cst, ofBuf_main_call2_cst, toBuf_main_call2_v0, ofBuf_main_call2_v0, toBuf_main_v59, ofBuf_main_v59, toBuf_main_v60, ofBuf_main_v60, toBuf_main_cst_22, ofBuf_main_cst_22, toBuf_main_call3_v0, ofBuf_main_call3_v0, toBuf_main_v80, ofBuf_main_v80, toBuf_main_call3_v1, ofBuf_main_call3_v1, toBuf_main_call3_v2, ofBuf_main_call3_v2, toBuf_main_v85, ofBuf_main_v85, toBuf_main_v86, ofBuf_main_v86, toBuf_main_call4_cst, ofBuf_main_call4_cst, toBuf_main_call4_v0, ofBuf_main_call4_v0, toBuf_main_v90, ofBuf_main_v90, toBuf_main_v91, ofBuf_main_v91, toBuf_main_cst_30, ofBuf_main_cst_30, toBuf_main_call5_v0, ofBuf_main_call5_v0, toBuf_main_v111, ofBuf_main_v111, toBuf_main_call5_v1, ofBuf_main_call5_v1, toBuf_main_call5_v2, ofBuf_main_call5_v2, toBuf_main_v116, ofBuf_main_v116, toBuf_main_v117, ofBuf_main_v117]
  rfl

/-! ## A layer, from any contents -/

theorem layer1_out : after ops1 W (Proc.devRef .tc main_v60)
    = refTail true (stage (W (Proc.devRef .tc main_arg0)) (W (Proc.devRef .tc main_v1)) (W (Proc.devRef .tc main_v3)) (W (Proc.devRef .tc main_v29)))
        (W (Proc.devRef .tc main_v3)) (W (Proc.devRef .tc main_arg3)) (W (Proc.devRef .tc main_arg4)) := by
  simp only [ops1, ops, List.drop_succ_cons, List.drop_zero, List.take_succ_cons, List.take_zero]
  after_results_simp
  simp only [ofBuf_toBuf, toBuf_ofBuf, toBuf_main_cst_3, ofBuf_main_cst_3, toBuf_main_call0_v0, ofBuf_main_call0_v0, toBuf_main_call0_v1, ofBuf_main_call0_v1, toBuf_main_v9, ofBuf_main_v9, toBuf_main_v12, ofBuf_main_v12, toBuf_main_v13, ofBuf_main_v13, toBuf_main_cst_14, ofBuf_main_cst_14, toBuf_main_call1_v0, ofBuf_main_call1_v0, toBuf_main_v49, ofBuf_main_v49, toBuf_main_call1_v1, ofBuf_main_call1_v1, toBuf_main_call1_v2, ofBuf_main_call1_v2, toBuf_main_v54, ofBuf_main_v54, toBuf_main_v55, ofBuf_main_v55, toBuf_main_call2_cst, ofBuf_main_call2_cst, toBuf_main_call2_v0, ofBuf_main_call2_v0, toBuf_main_v59, ofBuf_main_v59, toBuf_main_v60, ofBuf_main_v60, toBuf_main_cst_22, ofBuf_main_cst_22, toBuf_main_call3_v0, ofBuf_main_call3_v0, toBuf_main_v80, ofBuf_main_v80, toBuf_main_call3_v1, ofBuf_main_call3_v1, toBuf_main_call3_v2, ofBuf_main_call3_v2, toBuf_main_v85, ofBuf_main_v85, toBuf_main_v86, ofBuf_main_v86, toBuf_main_call4_cst, ofBuf_main_call4_cst, toBuf_main_call4_v0, ofBuf_main_call4_v0, toBuf_main_v90, ofBuf_main_v90, toBuf_main_v91, ofBuf_main_v91, toBuf_main_cst_30, ofBuf_main_cst_30, toBuf_main_call5_v0, ofBuf_main_call5_v0, toBuf_main_v111, ofBuf_main_v111, toBuf_main_call5_v1, ofBuf_main_call5_v1, toBuf_main_call5_v2, ofBuf_main_call5_v2, toBuf_main_v116, ofBuf_main_v116, toBuf_main_v117, ofBuf_main_v117]
  rfl

theorem layer2_out : after ops2 W (Proc.devRef .tc main_v91)
    = refTail true (stage (W (Proc.devRef .tc main_v60)) (W (Proc.devRef .tc main_v1)) (W (Proc.devRef .tc main_v3)) (W (Proc.devRef .tc main_v29)))
        (W (Proc.devRef .tc main_v3)) (W (Proc.devRef .tc main_arg5)) (W (Proc.devRef .tc main_arg6)) := by
  simp only [ops2, ops, List.drop_succ_cons, List.drop_zero, List.take_succ_cons, List.take_zero]
  after_results_simp
  simp only [ofBuf_toBuf, toBuf_ofBuf, toBuf_main_cst_3, ofBuf_main_cst_3, toBuf_main_call0_v0, ofBuf_main_call0_v0, toBuf_main_call0_v1, ofBuf_main_call0_v1, toBuf_main_v9, ofBuf_main_v9, toBuf_main_v12, ofBuf_main_v12, toBuf_main_v13, ofBuf_main_v13, toBuf_main_cst_14, ofBuf_main_cst_14, toBuf_main_call1_v0, ofBuf_main_call1_v0, toBuf_main_v49, ofBuf_main_v49, toBuf_main_call1_v1, ofBuf_main_call1_v1, toBuf_main_call1_v2, ofBuf_main_call1_v2, toBuf_main_v54, ofBuf_main_v54, toBuf_main_v55, ofBuf_main_v55, toBuf_main_call2_cst, ofBuf_main_call2_cst, toBuf_main_call2_v0, ofBuf_main_call2_v0, toBuf_main_v59, ofBuf_main_v59, toBuf_main_v60, ofBuf_main_v60, toBuf_main_cst_22, ofBuf_main_cst_22, toBuf_main_call3_v0, ofBuf_main_call3_v0, toBuf_main_v80, ofBuf_main_v80, toBuf_main_call3_v1, ofBuf_main_call3_v1, toBuf_main_call3_v2, ofBuf_main_call3_v2, toBuf_main_v85, ofBuf_main_v85, toBuf_main_v86, ofBuf_main_v86, toBuf_main_call4_cst, ofBuf_main_call4_cst, toBuf_main_call4_v0, ofBuf_main_call4_v0, toBuf_main_v90, ofBuf_main_v90, toBuf_main_v91, ofBuf_main_v91, toBuf_main_cst_30, ofBuf_main_cst_30, toBuf_main_call5_v0, ofBuf_main_call5_v0, toBuf_main_v111, ofBuf_main_v111, toBuf_main_call5_v1, ofBuf_main_call5_v1, toBuf_main_call5_v2, ofBuf_main_call5_v2, toBuf_main_v116, ofBuf_main_v116, toBuf_main_v117, ofBuf_main_v117]
  rfl

theorem layer3_out : after ops3 W (Proc.devRef .tc main_v121)
    = refTail false (stage (W (Proc.devRef .tc main_v91)) (W (Proc.devRef .tc main_v1)) (W (Proc.devRef .tc main_v3)) (W (Proc.devRef .tc main_v29)))
        (W (Proc.devRef .tc main_v3)) (W (Proc.devRef .tc main_arg7)) (W (Proc.devRef .tc main_arg8)) := by
  simp only [ops3, ops, List.drop_succ_cons, List.drop_zero]
  after_results_simp
  simp only [ofBuf_toBuf, toBuf_ofBuf, toBuf_main_cst_3, ofBuf_main_cst_3, toBuf_main_call0_v0, ofBuf_main_call0_v0, toBuf_main_call0_v1, ofBuf_main_call0_v1, toBuf_main_v9, ofBuf_main_v9, toBuf_main_v12, ofBuf_main_v12, toBuf_main_v13, ofBuf_main_v13, toBuf_main_cst_14, ofBuf_main_cst_14, toBuf_main_call1_v0, ofBuf_main_call1_v0, toBuf_main_v49, ofBuf_main_v49, toBuf_main_call1_v1, ofBuf_main_call1_v1, toBuf_main_call1_v2, ofBuf_main_call1_v2, toBuf_main_v54, ofBuf_main_v54, toBuf_main_v55, ofBuf_main_v55, toBuf_main_call2_cst, ofBuf_main_call2_cst, toBuf_main_call2_v0, ofBuf_main_call2_v0, toBuf_main_v59, ofBuf_main_v59, toBuf_main_v60, ofBuf_main_v60, toBuf_main_cst_22, ofBuf_main_cst_22, toBuf_main_call3_v0, ofBuf_main_call3_v0, toBuf_main_v80, ofBuf_main_v80, toBuf_main_call3_v1, ofBuf_main_call3_v1, toBuf_main_call3_v2, ofBuf_main_call3_v2, toBuf_main_v85, ofBuf_main_v85, toBuf_main_v86, ofBuf_main_v86, toBuf_main_call4_cst, ofBuf_main_call4_cst, toBuf_main_call4_v0, ofBuf_main_call4_v0, toBuf_main_v90, ofBuf_main_v90, toBuf_main_v91, ofBuf_main_v91, toBuf_main_cst_30, ofBuf_main_cst_30, toBuf_main_call5_v0, ofBuf_main_call5_v0, toBuf_main_v111, ofBuf_main_v111, toBuf_main_call5_v1, ofBuf_main_call5_v1, toBuf_main_call5_v2, ofBuf_main_call5_v2, toBuf_main_v116, ofBuf_main_v116, toBuf_main_v117, ofBuf_main_v117]
  rfl

/-! ## What each piece leaves alone -/

theorem edge_keep_arg0 : after opsE W (Proc.devRef .tc main_arg0) = W (Proc.devRef .tc main_arg0) := by
  simp only [opsE, ops, List.take_succ_cons, List.take_zero]
  after_results_simp <;> rfl
theorem edge_keep_arg3 : after opsE W (Proc.devRef .tc main_arg3) = W (Proc.devRef .tc main_arg3) := by
  simp only [opsE, ops, List.take_succ_cons, List.take_zero]
  after_results_simp <;> rfl
theorem edge_keep_arg4 : after opsE W (Proc.devRef .tc main_arg4) = W (Proc.devRef .tc main_arg4) := by
  simp only [opsE, ops, List.take_succ_cons, List.take_zero]
  after_results_simp <;> rfl
theorem edge_keep_arg5 : after opsE W (Proc.devRef .tc main_arg5) = W (Proc.devRef .tc main_arg5) := by
  simp only [opsE, ops, List.take_succ_cons, List.take_zero]
  after_results_simp <;> rfl
theorem edge_keep_arg6 : after opsE W (Proc.devRef .tc main_arg6) = W (Proc.devRef .tc main_arg6) := by
  simp only [opsE, ops, List.take_succ_cons, List.take_zero]
  after_results_simp <;> rfl
theorem edge_keep_arg7 : after opsE W (Proc.devRef .tc main_arg7) = W (Proc.devRef .tc main_arg7) := by
  simp only [opsE, ops, List.take_succ_cons, List.take_zero]
  after_results_simp <;> rfl
theorem edge_keep_arg8 : after opsE W (Proc.devRef .tc main_arg8) = W (Proc.devRef .tc main_arg8) := by
  simp only [opsE, ops, List.take_succ_cons, List.take_zero]
  after_results_simp <;> rfl
theorem layer1_keep_v1 : after ops1 W (Proc.devRef .tc main_v1) = W (Proc.devRef .tc main_v1) := by
  simp only [ops1, ops, List.drop_succ_cons, List.drop_zero, List.take_succ_cons, List.take_zero]
  after_results_simp <;> rfl
theorem layer1_keep_v3 : after ops1 W (Proc.devRef .tc main_v3) = W (Proc.devRef .tc main_v3) := by
  simp only [ops1, ops, List.drop_succ_cons, List.drop_zero, List.take_succ_cons, List.take_zero]
  after_results_simp <;> rfl
theorem layer1_keep_v29 : after ops1 W (Proc.devRef .tc main_v29) = W (Proc.devRef .tc main_v29) := by
  simp only [ops1, ops, List.drop_succ_cons, List.drop_zero, List.take_succ_cons, List.take_zero]
  after_results_simp <;> rfl
theorem layer1_keep_arg5 : after ops1 W (Proc.devRef .tc main_arg5) = W (Proc.devRef .tc main_arg5) := by
  simp only [ops1, ops, List.drop_succ_cons, List.drop_zero, List.take_succ_cons, List.take_zero]
  after_results_simp <;> rfl
theorem layer1_keep_arg6 : after ops1 W (Proc.devRef .tc main_arg6) = W (Proc.devRef .tc main_arg6) := by
  simp only [ops1, ops, List.drop_succ_cons, List.drop_zero, List.take_succ_cons, List.take_zero]
  after_results_simp <;> rfl
theorem layer1_keep_arg7 : after ops1 W (Proc.devRef .tc main_arg7) = W (Proc.devRef .tc main_arg7) := by
  simp only [ops1, ops, List.drop_succ_cons, List.drop_zero, List.take_succ_cons, List.take_zero]
  after_results_simp <;> rfl
theorem layer1_keep_arg8 : after ops1 W (Proc.devRef .tc main_arg8) = W (Proc.devRef .tc main_arg8) := by
  simp only [ops1, ops, List.drop_succ_cons, List.drop_zero, List.take_succ_cons, List.take_zero]
  after_results_simp <;> rfl
theorem layer2_keep_v1 : after ops2 W (Proc.devRef .tc main_v1) = W (Proc.devRef .tc main_v1) := by
  simp only [ops2, ops, List.drop_succ_cons, List.drop_zero, List.take_succ_cons, List.take_zero]
  after_results_simp <;> rfl
theorem layer2_keep_v3 : after ops2 W (Proc.devRef .tc main_v3) = W (Proc.devRef .tc main_v3) := by
  simp only [ops2, ops, List.drop_succ_cons, List.drop_zero, List.take_succ_cons, List.take_zero]
  after_results_simp <;> rfl
theorem layer2_keep_v29 : after ops2 W (Proc.devRef .tc main_v29) = W (Proc.devRef .tc main_v29) := by
  simp only [ops2, ops, List.drop_succ_cons, List.drop_zero, List.take_succ_cons, List.take_zero]
  after_results_simp <;> rfl
theorem layer2_keep_arg7 : after ops2 W (Proc.devRef .tc main_arg7) = W (Proc.devRef .tc main_arg7) := by
  simp only [ops2, ops, List.drop_succ_cons, List.drop_zero, List.take_succ_cons, List.take_zero]
  after_results_simp <;> rfl
theorem layer2_keep_arg8 : after ops2 W (Proc.devRef .tc main_arg8) = W (Proc.devRef .tc main_arg8) := by
  simp only [ops2, ops, List.drop_succ_cons, List.drop_zero, List.take_succ_cons, List.take_zero]
  after_results_simp <;> rfl

/-! ## The whole program -/

/-- The features after the three layers, from the launch contents of the arguments. -/
def refResult (x : Mat) (ei : (⟨S2x800000, .i32⟩ : BufTy).Contents (Elt Ideal)) (w : EdgeW)
    (W1 : Wt) (b1 : Bias) (W2 : Wt) (b2 : Bias) (W3 : Wt) (b3 : Bias) : Mat :=
  refTail false (stage (refTail true (stage (refTail true (stage x (rowOf ei) (colOf ei) (ewOf w (rowOf ei) (colOf ei)))
      (colOf ei) W1 b1) (rowOf ei) (colOf ei) (ewOf w (rowOf ei) (colOf ei))) (colOf ei) W2 b2)
    (rowOf ei) (colOf ei) (ewOf w (rowOf ei) (colOf ei))) (colOf ei) W3 b3

/-- The result buffer after the whole program holds the three layers of the arguments. -/
theorem result_eq :
    after (ops (F := Ideal)) W (Proc.devRef .tc main_v121)
      = refResult (W (Proc.devRef .tc main_arg0)) (W (Proc.devRef .tc main_arg1)) (W (Proc.devRef .tc main_arg2)) (W (Proc.devRef .tc main_arg3)) (W (Proc.devRef .tc main_arg4))
          (W (Proc.devRef .tc main_arg5)) (W (Proc.devRef .tc main_arg6)) (W (Proc.devRef .tc main_arg7)) (W (Proc.devRef .tc main_arg8)) := by
  rw [ops_split, Cert.LibAfterAppend.after_append, Cert.LibAfterAppend.after_append, Cert.LibAfterAppend.after_append]
  rw [layer3_out, layer2_out, layer1_out]
  rw [layer2_keep_v1, layer2_keep_v3, layer2_keep_v29, layer2_keep_arg7, layer2_keep_arg8]
  rw [layer1_keep_v1, layer1_keep_v3, layer1_keep_v29, layer1_keep_arg5, layer1_keep_arg6, layer1_keep_arg7, layer1_keep_arg8]
  rw [edge_row, edge_col, edge_ew, edge_keep_arg0, edge_keep_arg3, edge_keep_arg4, edge_keep_arg5, edge_keep_arg6,
    edge_keep_arg7, edge_keep_arg8]
  rfl

end Cert.ReferenceIdeal.RefValue

end
-- ==== Proof.RefRun.lean ====
/-
  The reference program's run: it terminates, its argument arrays end unchanged, and its result buffer holds the network of
  the arguments.

  The program is a straight line of host operations, so every weakly fair execution ends with every buffer at the fold of the
  operations over the launch contents. At the result buffer that fold is the three whole-array layers, each of which is the
  layer at every entry; at an argument's buffer it is the launch contents, no operation writing an argument.
-/
import proofs.«176437_j81698867905110_1_alg».proof.Proof.RefValue
import proofs.«176437_j81698867905110_1_alg».proof.Proof.Net
import proofs.«176437_j81698867905110_1_alg».proof.Proof.LayerLaw

noncomputable section

namespace Cert.ReferenceIdeal.RefRun

open Cert.ReferenceIdeal Cert.ReferenceIdeal.Gen Cert.ReferenceIdeal.RunP Cert.ReferenceIdeal.RefValue Cert.Gcn
open Idealize.ShloMosaic Idealize.ShloMosaic.TcCoe Idealize.SL.Sem Idealize.ShloMosaic.StableHlo

/-- The three whole-array layers are the network: each whole-array layer is the layer at every entry, innermost first. -/
theorem refResult_eq_net (x : Mat) (ei : (⟨S2x800000, .i32⟩ : BufTy).Contents (Elt Ideal)) (w : EdgeW)
    (W1 : Wt) (b1 : Bias) (W2 : Wt) (b2 : Bias) (W3 : Wt) (b3 : Bias) :
    refResult x ei w W1 b1 W2 b2 W3 b3 = net x ei w W1 b1 W2 b2 W3 b3 :=
  (congrArg (fun h => refTail false (stage (refTail true (stage h (rowOf ei) (colOf ei) (ewOf w (rowOf ei) (colOf ei)))
        (colOf ei) W2 b2) (rowOf ei) (colOf ei) (ewOf w (rowOf ei) (colOf ei))) (colOf ei) W3 b3)
      (refTail_eq true (stage x (rowOf ei) (colOf ei) (ewOf w (rowOf ei) (colOf ei))) (colOf ei) W1 b1)).trans
    ((congrArg (fun h => refTail false (stage h (rowOf ei) (colOf ei) (ewOf w (rowOf ei) (colOf ei))) (colOf ei) W3 b3)
        (refTail_eq true (stage (layerOf true x ei w W1 b1) (rowOf ei) (colOf ei) (ewOf w (rowOf ei) (colOf ei))) (colOf ei) W2 b2)).trans
      (refTail_eq false (stage (layerOf true (layerOf true x ei w W1 b1) ei w W2 b2) (rowOf ei) (colOf ei) (ewOf w (rowOf ei) (colOf ei)))
        (colOf ei) W3 b3))

/-! ## No operation writes an argument -/

section
variable (W : Valuation τ sig (Elt Ideal))
theorem keep_arg0 : after (ops (F := Ideal)) W (Proc.devRef .tc main_arg0) = W (Proc.devRef .tc main_arg0) := by
  after_results_simp <;> rfl
theorem keep_arg1 : after (ops (F := Ideal)) W (Proc.devRef .tc main_arg1) = W (Proc.devRef .tc main_arg1) := by
  after_results_simp <;> rfl
theorem keep_arg2 : after (ops (F := Ideal)) W (Proc.devRef .tc main_arg2) = W (Proc.devRef .tc main_arg2) := by
  after_results_simp <;> rfl
theorem keep_arg3 : after (ops (F := Ideal)) W (Proc.devRef .tc main_arg3) = W (Proc.devRef .tc main_arg3) := by
  after_results_simp <;> rfl
theorem keep_arg4 : after (ops (F := Ideal)) W (Proc.devRef .tc main_arg4) = W (Proc.devRef .tc main_arg4) := by
  after_results_simp <;> rfl
theorem keep_arg5 : after (ops (F := Ideal)) W (Proc.devRef .tc main_arg5) = W (Proc.devRef .tc main_arg5) := by
  after_results_simp <;> rfl
theorem keep_arg6 : after (ops (F := Ideal)) W (Proc.devRef .tc main_arg6) = W (Proc.devRef .tc main_arg6) := by
  after_results_simp <;> rfl
theorem keep_arg7 : after (ops (F := Ideal)) W (Proc.devRef .tc main_arg7) = W (Proc.devRef .tc main_arg7) := by
  after_results_simp <;> rfl
theorem keep_arg8 : after (ops (F := Ideal)) W (Proc.devRef .tc main_arg8) = W (Proc.devRef .tc main_arg8) := by
  after_results_simp <;> rfl
end

/-! ## The run -/

/-- From any memory with zero counters every weakly fair execution of the reference program terminates, nothing faulting,
    with the result buffer at the network of the launch contents of the arguments and the argument arrays as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v121).trans ((result_eq (launchContents m c)).trans (refResult_eq_net _ _ _ _ _ _ _ _ _)),
       (h c main_arg0).trans (keep_arg0 (launchContents m c)),
       (h c main_arg1).trans (keep_arg1 (launchContents m c)),
       (h c main_arg2).trans (keep_arg2 (launchContents m c)),
       (h c main_arg3).trans (keep_arg3 (launchContents m c)),
       (h c main_arg4).trans (keep_arg4 (launchContents m c)),
       (h c main_arg5).trans (keep_arg5 (launchContents m c)),
       (h c main_arg6).trans (keep_arg6 (launchContents m c)),
       (h c main_arg7).trans (keep_arg7 (launchContents m c)),
       (h c main_arg8).trans (keep_arg8 (launchContents m c))⟩)
    (run_seq scopedRefs_eq scopedSems_eq defs main (fun _ => ops) main_eq (fun _ => ops_sub) m ρ)

end Cert.ReferenceIdeal.RefRun

end
-- ==== Proof.lean ====
/-
  A three-layer graph convolution with mean aggregation: a kernel that runs each layer's dense part as a pipelined block
  computation, against a reference written with whole-array operations, equal over the extended reals.

  Nodes `N = 50000`, edges `E = 800000`, channels `C = 64`. Both programs compute, from the edge list, the in-degree of
  every node and the edge weights `w · deg[src]^(-1/2) · deg[dst]^(-1/2)` (zero factors where a degree is not positive), and
  then three times: the per-node sums `s` of the weighted source rows of the current features (gather, scale, scatter-add),
  the MEAN over the incoming edges, a `C × C` matrix product, a bias, and after the first two layers a clamp below by zero.

  They differ only in the mean. The reference divides the sums by the in-degree clamped below by one and selects zero where
  the in-degree is not positive. The kernel multiplies the sums, inside each block, by a table the host prepared once: the
  reciprocal of the clamped in-degree where the in-degree is positive and zero elsewhere. On the extended reals
  `x · (1 / d) = x / d` for every `x` when `d ≠ 0`, at the infinities too, and `x · 0 = 0` for every `x`; so the two means
  agree at every entry and for every input, and the precondition that the inputs are finite is not used. The kernel also
  narrows its matrix operands to bf16, which is the identity on extended reals, and its block product into a zero
  accumulator is the same sum over the contracted coordinate as the reference's product.

  Each program's result is shown to be ONE array, the network `Cert.Gcn.net` of the arguments: the reference's by
  evaluating its straight line of operations piece by piece; the kernel's by following the buffer contents through its ten
  segments, each dense block's output array being the block function of the block's four input arrays. The three frames are
  the generated frame certificates of the two kernel programs and the reference's run with its result forgotten; no
  rewrite separates the kernel from its idealization.
-/
import proofs.«176437_j81698867905110_1_alg».proof.Defs
import proofs.«176437_j81698867905110_1_alg».proof.Proof.Gen.Kernel
import proofs.«176437_j81698867905110_1_alg».proof.Proof.Gen.Kernel.Skeleton
import proofs.«176437_j81698867905110_1_alg».proof.Proof.Gen.Kernel.Launch
import proofs.«176437_j81698867905110_1_alg».proof.Proof.Gen.Kernel.Points
import proofs.«176437_j81698867905110_1_alg».proof.Proof.Gen.Kernel.Frame
import proofs.«176437_j81698867905110_1_alg».proof.Proof.Gen.KernelIdeal
import proofs.«176437_j81698867905110_1_alg».proof.Proof.Gen.KernelIdeal.Skeleton
import proofs.«176437_j81698867905110_1_alg».proof.Proof.Gen.KernelIdeal.Launch
import proofs.«176437_j81698867905110_1_alg».proof.Proof.Gen.KernelIdeal.Points
import proofs.«176437_j81698867905110_1_alg».proof.Proof.Gen.KernelIdeal.Frame
import proofs.«176437_j81698867905110_1_alg».proof.Proof.Gen.ReferenceIdeal
import proofs.«176437_j81698867905110_1_alg».proof.Proof.Gen.Pre_finite_inputs
import proofs.«176437_j81698867905110_1_alg».proof.Proof.KernRun
import proofs.«176437_j81698867905110_1_alg».proof.Proof.KernValue
import proofs.«176437_j81698867905110_1_alg».proof.Proof.RefRun
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result forgotten. -/
theorem frame_ri : Cert.frame_ReferenceIdeal := fun m ρ _ =>
  (θ_run Cert.ReferenceIdeal.defs _ _).mono (fun _ h c => (h c).2) (Cert.ReferenceIdeal.RefRun.run m ρ)

/-- The idealized kernel is the kernel's own text read over the extended reals: nothing was rewritten. -/
theorem preserves : Cert.preserves_Kernel_KernelIdeal := trivial

/-- From memories that agree on the arguments both idealized programs end with the network of the arguments in their
    result buffers, and with their arguments unchanged. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KernValue.result_eq m ρ c), (h c).2⟩)
      (Cert.KernelIdeal.KernRun.run_out (F := Ideal) m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
